-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x49x128 : Shape := ⟨3, ![8192, 49, 128]⟩
abbrev S384x128 : Shape := ⟨2, ![384, 128]⟩
abbrev S128x128 : Shape := ⟨2, ![128, 128]⟩
abbrev S128 : Shape := ⟨1, ![128]⟩
abbrev S169x4 : Shape := ⟨2, ![169, 4]⟩
abbrev S1024x49x49 : Shape := ⟨3, ![1024, 49, 49]⟩
abbrev S49x49 : Shape := ⟨2, ![49, 49]⟩
abbrev S_ : Shape := ⟨0, ![]⟩

class Facts : Prop where
  bcast_S_S8192x49x128 : S_.BroadcastsInDim S8192x49x128 (![] : Fin 0 → Fin S8192x49x128.rank)
  reducesTo_S8192x49x128_S_d0_1_2 : S8192x49x128.ReducesTo [0, 1, 2] S_
  h_S_ : 0 < S_.numel
  bcast_S_S384x128 : S_.BroadcastsInDim S384x128 (![] : Fin 0 → Fin S384x128.rank)
  reducesTo_S384x128_S_d0_1 : S384x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S169x4 : S_.BroadcastsInDim S169x4 (![] : Fin 0 → Fin S169x4.rank)
  reducesTo_S169x4_S_d0_1 : S169x4.ReducesTo [0, 1] S_
  bcast_S_S1024x49x49 : S_.BroadcastsInDim S1024x49x49 (![] : Fin 0 → Fin S1024x49x49.rank)
  reducesTo_S1024x49x49_S_d0_1_2 : S1024x49x49.ReducesTo [0, 1, 2] S_

variable [Facts]

def fn_part1 {F : FTy → Type} [FloatOps F] (main_arg4 : FVec F S169x4 .f32) (main_arg5 : FVec F S1024x49x49 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S169x4 .f32 := Host.absf main_arg4
  let main_cst_6 : FVec F S_ .f32 := constant S_ .f32 0x7F800000#32
  let main_v20 : FVec F S169x4 .f32 := broadcastInDim S169x4 ![] bcast_S_S169x4 main_cst_6
  let main_v21 : IVec S169x4 1 := cmpf .olt main_v19 main_v20
  let main_c_7 : IVec S_ 1 := constantI S_ 1 1#1
  let main_v22 : IVec S_ 1 := (fun x v => Host.reduce IntOp.andi x v reducesTo_S169x4_S_d0_1 h_S_) main_v21 main_c_7
  let main_v23 : IVec S_ 1 := andi main_v18 main_v22
  let main_v24 : FVec F S1024x49x49 .f32 := Host.absf main_arg5
  let main_cst_8 : FVec F S_ .f32 := constant S_ .f32 0x7F800000#32
  let main_v25 : FVec F S1024x49x49 .f32 := broadcastInDim S1024x49x49 ![] bcast_S_S1024x49x49 main_cst_8
  let main_v26 : IVec S1024x49x49 1 := cmpf .olt main_v24 main_v25
  let main_c_9 : IVec S_ 1 := constantI S_ 1 1#1
  let main_v27 : IVec S_ 1 := (fun x v => Host.reduce IntOp.andi x v reducesTo_S1024x49x49_S_d0_1_2 h_S_) main_v26 main_c_9
  let main_v28 : IVec S_ 1 := andi main_v23 main_v27
  main_v28

def fn {F : FTy → Type} [FloatOps F] (main_arg0 : FVec F S8192x49x128 .f32) (main_arg1 : FVec F S384x128 .f32) (main_arg2 : FVec F S128x128 .f32) (main_arg3 : FVec F S128 .f32) (main_arg4 : FVec F S169x4 .f32) (main_arg5 : FVec F S1024x49x49 .f32) (main_arg6 : IVec S49x49 32) : IVec S_ 1 :=
  let main_v0 : FVec F S8192x49x128 .f32 := Host.absf main_arg0
  let main_cst : FVec F S_ .f32 := constant S_ .f32 0x7F800000#32
  let main_v1 : FVec F S8192x49x128 .f32 := broadcastInDim S8192x49x128 ![] bcast_S_S8192x49x128 main_cst
  let main_v2 : IVec S8192x49x128 1 := cmpf .olt main_v0 main_v1
  let main_c : IVec S_ 1 := constantI S_ 1 1#1
  let main_v3 : IVec S_ 1 := (fun x v => Host.reduce IntOp.andi x v reducesTo_S8192x49x128_S_d0_1_2 h_S_) main_v2 main_c
  let main_v4 : FVec F S384x128 .f32 := Host.absf main_arg1
  let main_cst_0 : FVec F S_ .f32 := constant S_ .f32 0x7F800000#32
  let main_v5 : FVec F S384x128 .f32 := broadcastInDim S384x128 ![] bcast_S_S384x128 main_cst_0
  let main_v6 : IVec S384x128 1 := cmpf .olt main_v4 main_v5
  let main_c_1 : IVec S_ 1 := constantI S_ 1 1#1
  let main_v7 : IVec S_ 1 := (fun x v => Host.reduce IntOp.andi x v reducesTo_S384x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S8192x49x128 : Shape := ⟨3, ![8192, 49, 128]⟩
abbrev S384x128 : Shape := ⟨2, ![384, 128]⟩
abbrev S128x128 : Shape := ⟨2, ![128, 128]⟩
abbrev S128 : Shape := ⟨1, ![128]⟩
abbrev S169x4 : Shape := ⟨2, ![169, 4]⟩
abbrev S1024x49x49 : Shape := ⟨3, ![1024, 49, 49]⟩
abbrev S49x49 : Shape := ⟨2, ![49, 49]⟩
abbrev S_ : Shape := ⟨0, ![]⟩
abbrev S49x49x1 : Shape := ⟨3, ![49, 49, 1]⟩
abbrev S49x49x4 : Shape := ⟨3, ![49, 49, 4]⟩
abbrev S4x49x49 : Shape := ⟨3, ![4, 49, 49]⟩
abbrev S64x49x128 : Shape := ⟨3, ![64, 49, 128]⟩
abbrev S64x49x49 : Shape := ⟨3, ![64, 49, 49]⟩
abbrev S3136x128 : Shape := ⟨2, ![3136, 128]⟩
abbrev S64x49x32 : Shape := ⟨3, ![64, 49, 32]⟩
abbrev S1x49x49 : Shape := ⟨3, ![1, 49, 49]⟩
abbrev S64x49 : Shape := ⟨2, ![64, 49]⟩
abbrev S64x49x1 : Shape := ⟨3, ![64, 49, 1]⟩
abbrev S1x128 : Shape := ⟨2, ![1, 128]⟩

abbrev nBuf : Space → Nat
  | .hbm => 18
  | .vmem => 11
  | .smem => 0
  | _ => 0

abbrev bufTy : (tb : Table) → Fin (tcTables nBuf tb) → BufTy
  | .hbm, ⟨0, _⟩ => ⟨S8192x49x128, .f32⟩
  | .hbm, ⟨1, _⟩ => ⟨S384x128, .f32⟩
  | .hbm, ⟨2, _⟩ => ⟨S128x128, .f32⟩
  | .hbm, ⟨3, _⟩ => ⟨S128, .f32⟩
  | .hbm, ⟨4, _⟩ => ⟨S169x4, .f32⟩
  | .hbm, ⟨5, _⟩ => ⟨S1024x49x49, .f32⟩
  | .hbm, ⟨6, _⟩ => ⟨S49x49, .i32⟩
  | .hbm, ⟨7, _⟩ => ⟨S_, .i32⟩
  | .hbm, ⟨8, _⟩ => ⟨S49x49, .i32⟩
  | .hbm, ⟨9, _⟩ => ⟨S49x49, .i1⟩
  | .hbm, ⟨10, _⟩ => ⟨S_, .i32⟩
  | .hbm, ⟨11, _⟩ => ⟨S49x49, .i32⟩
  | .hbm, ⟨12, _⟩ => ⟨S49x49, .i32⟩
  | .hbm, ⟨13, _⟩ => ⟨S49x49, .i32⟩
  | .hbm, ⟨14, _⟩ => ⟨S49x49x1, .i32⟩
  | .hbm, ⟨15, _⟩ => ⟨S49x49x4, .f32⟩
  | .hbm, ⟨16, _⟩ => ⟨S4x49x49, .f32⟩
  | .hbm, ⟨17, _⟩ => ⟨S8192x49x128, .f32⟩
  | .local _ .vmem, ⟨0, _⟩ => ⟨S64x49x128, .f32⟩
  | .local _ .vmem, ⟨1, _⟩ => ⟨S64x49x128, .f32⟩
  | .local _ .vmem, ⟨2, _⟩ => ⟨S384x128, .f32⟩
  | .local _ .vmem, ⟨3, _⟩ => ⟨S128x128, .f32⟩
  | .local _ .vmem, ⟨4, _⟩ => ⟨S128, .f32⟩
  | .local _ .vmem, ⟨5, _⟩ => ⟨S4x49x49, .f32⟩
  | .local _ .vmem, ⟨6, _⟩ => ⟨S64x49x49, .f32⟩
  | .local _ .vmem, ⟨7, _⟩ => ⟨S64x49x49, .f32⟩
  | .local _ .vmem, ⟨8, _⟩ => ⟨S64x49x128, .f32⟩
  | .local _ .vmem, ⟨9, _⟩ => ⟨S64x49x128, .f32⟩
  | .local _ .vmem, ⟨10, _⟩ => ⟨S64x49x128, .f32⟩
  | _, _ => ⟨S8192x49x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x49x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x49x49 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x49x49 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x49x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S49x49 : S_.BroadcastsInDim S49x49 (![] : Fin 0 → Fin S49x49.rank)
  bcast_S49x49_S49x49x1_0_1 : S49x49.BroadcastsInDim S49x49x1 (![0, 1] : Fin 2 → Fin S49x49x1.rank)
  transposes_S49x49x4_S4x49x49_2_0_1 : S49x49x4.Transposes [2, 0, 1] S4x49x49
  inb_S64x49x128_S64x49x128_0_0_0 : ∀ a, (![0, 0, 0] : Fin 3 → Nat) a + S64x49x128.size a ≤ S64x49x128.size a
  h_S64x49x128 : 0 < S64x49x128.numel
  bitsLt_bf16_f32 : FTy.bits .bf16 < FTy.bits .f32
  shapeCasts_S64x49x128_S3136x128 : S64x49x128.ShapeCasts S3136x128
  inb_S384x128_S384x128_0_0 : ∀ a, (![0, 0] : Fin 2 → Nat) a + S384x128.size a ≤ S384x128.size a
  h_S384x128 : 0 < S384x128.numel
  slices_S384x128_o0_0_S128x128 : S384x128.Slices ![0, 0] S128x128
  slices_S384x128_o128_0_S128x128 : S384x128.Slices ![128, 0] S128x128
  slices_S384x128_o256_0_S128x128 : S384x128.Slices ![256, 0] S128x128
  shapeCasts_S3136x128_S64x49x128 : S3136x128.ShapeCasts S64x49x128
  inb_S64x49x49_S64x49x49_0_0_0 : ∀ a, (![0, 0, 0] : Fin 3 → Nat) a + S64x49x49.size a ≤ S64x49x49.size a
  h_S64x49x49 : 0 < S64x49x49.numel
  inb_S4x49x49_S4x49x49_0_0_0 : ∀ a, (![0, 0, 0] : Fin 3 → Nat) a + S4x49x49.size a ≤ S4x49x49.size a
  h_S4x49x49 : 0 < S4x49x49.numel
  shapeCasts_S4x49x49_S4x49x49 : S4x49x49.ShapeCasts S4x49x49
  slices_S64x49x128_o0_0_0_S64x49x32 : S64x49x128.Slices ![0, 0, 0] S64x49x32
  slices_S4x49x49_o0_0_0_S1x49x49 : S4x49x49.Slices ![0, 0, 0] S1x49x49
  shapeCasts_S1x49x49_S49x49 : S1x49x49.ShapeCasts S49x49
  shapeCasts_S49x49_S1x49x49 : S49x49.ShapeCasts S1x49x49
  broadcasts_S1x49x49_S64x49x49 : S1x49x49.Broadcasts S64x49x49
  reduces_S64x49x49_S64x49 : S64x49x49.Reduces [2] S64x49
  shapeCasts_S64x49_S64x49x1 : S64x49.ShapeCasts S64x49x1
  broadcasts_S64x49x1_S64x49x49 : S64x49x1.Broadcasts S64x49x49
  inb_S64x49x128_S64x49x32_0_0_0 : ∀ a, (![0, 0, 0] : Fin 3 → Nat) a + S64x49x32.size a ≤ S64x49x128.size a
  h_S64x49x32 : 0 < S64x49x32.numel
  shapeCasts_S64x49x32_S64x49x32 : S64x49x32.ShapeCasts S64x49x32
  slices_S64x49x128_o0_0_32_S64x49x32 : S64x49x128.Slices ![0, 0, 32] S64x49x32
  slices_S4x49x49_o1_0_0_S1x49x49 : S4x49x49.Slices ![1, 0, 0] S1x49x49
  inb_S64x49x128_S64x49x32_0_0_32 : ∀ a, (![0, 0, 32] : Fin 3 → Nat) a + S64x49x32.size a ≤ S64x49x128.size a
  slices_S64x49x128_o0_0_64_S64x49x32 : S64x49x128.Slices ![0, 0, 64] S64x49x32
  slices_S4x49x49_o2_0_0_S1x49x49 : S4x49x49.Slices ![2, 0, 0] S1x49x49
  inb_S64x49x128_S64x49x32_0_0_64 : ∀ a, (![0, 0, 64] : Fin 3 → Nat) a + S64x49x32.size a ≤ S64x49x128.size a
  slices_S64x49x128_o0_0_96_S64x49x32 : S64x49x128.Slices ![0, 0, 96] S64x49x32
  slices_S4x49x49_o3_0_0_S1x49x49 : S4x49x49.Slices ![3, 0, 0] S1x49x49
  inb_S64x49x128_S64x49x32_0_0_96 : ∀ a, (![0, 0, 96] : Fin 3 → Nat) a + S64x49x32.size a ≤ S64x49x128.size a
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S3136x128 : S1x128.Broadcasts S3136x128
  gather_S169x4_S49x49x1_S49x49x4_2_0_n_n_0_2_14_wf : GatherDims.WF S169x4 S49x49x1 S49x49x4 [2] [0] [] [0] [] 2 ![1, 4]
  dot_S3136x128_S128x128_S3136x128_1_1_0_0_n_n_wf : DotDims.WF S3136x128 S128x128 S3136x128 [1] [1] [0] [0] [] []
  dot_S64x49x32_S64x49x32_S64x49x49_2_2_1_1_0_0_wf : DotDims.WF S64x49x32 S64x49x32 S64x49x49 [2] [2] [1] [1] [0] [0]
  dot_S64x49x49_S64x49x32_S64x49x32_2_1_1_2_0_0_wf : DotDims.WF S64x49x49 S64x49x32 S64x49x32 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x49x128.size a ≤ S8192x49x128.size a
  hwx0_0 : ∀ i : grid0.Coords, EltTy.bits .f32 = 32 ∨ (Rect.block (s := S8192x49x128) S64x49x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x128.size a ≤ S384x128.size a
  hwx0_1 : ∀ i : grid0.Coords, EltTy.bits .f32 = 32 ∨ (Rect.block (s := S384x128) S384x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x49x49.size a ≤ S4x49x49.size a
  hwx0_4 : ∀ i : grid0.Coords, EltTy.bits .f32 = 32 ∨ (Rect.block (s := S4x49x49) S4x49x49.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x49x49.size a ≤ S1024x49x49.size a
  hwx0_5 : ∀ i : grid0.Coords, EltTy.bits .f32 = 32 ∨ (Rect.block (s := S1024x49x49) S64x49x49.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x49x128.size a ≤ S8192x49x128.size a
  hwx0_6 : ∀ i : grid0.Coords, EltTy.bits .f32 = 32 ∨ (Rect.block (s := S8192x49x128) S64x49x128.size (cc0_transform_6 i) (hinb0_6 i)).WholeWords (EltTy.packing .f32)

variable [Facts₀]

def gather_S169x4_S49x49x1_S49x49x4_2_0_n_n_0_2_14 : GatherDims S169x4 S49x49x1 S49x49x4 where
  offsetDims := [2]
  collapsedSliceDims := [0]
  operandBatchingDims := []
  startIndicesBatchingDims := []
  startIndexMap := [0]
  indexVectorDim := 2
  sliceSizes := ![1, 4]
  wf := gather_S169x4_S49x49x1_S49x49x4_2_0_n_n_0_2_14_wf
def dot_S3136x128_S128x128_S3136x128_1_1_0_0_n_n : DotDims S3136x128 S128x128 S3136x128 where
  lhsContracting := [1]
  rhsContracting := [1]
  lhsNonContracting := [0]
  rhsNonContracting := [0]
  lhsBatch := []
  rhsBatch := []
  wf := dot_S3136x128_S128x128_S3136x128_1_1_0_0_n_n_wf
def dot_S64x49x32_S64x49x32_S64x49x49_2_2_1_1_0_0 : DotDims S64x49x32 S64x49x32 S64x49x49 where
  lhsContracting := [2]
  rhsContracting := [2]
  lhsNonContracting := [1]
  rhsNonContracting := [1]
  lhsBatch := [0]
  rhsBatch := [0]
  wf := dot_S64x49x32_S64x49x32_S64x49x49_2_2_1_1_0_0_wf
def dot_S64x49x49_S64x49x32_S64x49x32_2_1_1_2_0_0 : DotDims S64x49x49 S64x49x32 S64x49x32 where
  lhsContracting := [2]
  rhsContracting := [1]
  lhsNonContracting := [1]
  rhsNonContracting := [2]
  lhsBatch := [0]
  rhsBatch := [0]
  wf := dot_S64x49x49_S64x49x32_S64x49x32_2_1_1_2_0_0_wf

abbrev win0_0 : Pipeline.Window sig grid0 :=
  Pipeline.Window.ofSpec (Memref.whole main_arg0) S64x49x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S4x49x49.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x49x49.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8) S64x49x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x49x128 : Shape := ⟨3, ![8192, 49, 128]⟩
abbrev S384x128 : Shape := ⟨2, ![384, 128]⟩
abbrev S128x128 : Shape := ⟨2, ![128, 128]⟩
abbrev S128 : Shape := ⟨1, ![128]⟩
abbrev S169x4 : Shape := ⟨2, ![169, 4]⟩
abbrev S1024x49x49 : Shape := ⟨3, ![1024, 49, 49]⟩
abbrev S49x49 : Shape := ⟨2, ![49, 49]⟩
abbrev S8192x49x384 : Shape := ⟨3, ![8192, 49, 384]⟩
abbrev S8192x49x3x4x32 : Shape := ⟨5, ![8192, 49, 3, 4, 32]⟩
abbrev S3x8192x4x49x32 : Shape := ⟨5, ![3, 8192, 4, 49, 32]⟩
abbrev S1x8192x4x49x32 : Shape := ⟨5, ![1, 8192, 4, 49, 32]⟩
abbrev S8192x4x49x32 : Shape := ⟨4, ![8192, 4, 49, 32]⟩
abbrev S_ : Shape := ⟨0, ![]⟩
abbrev S8192x4x49x49 : Shape := ⟨4, ![8192, 4, 49, 49]⟩
abbrev S49x49x1 : Shape := ⟨3, ![49, 49, 1]⟩
abbrev S49x49x4 : Shape := ⟨3, ![49, 49, 4]⟩
abbrev S4x49x49 : Shape := ⟨3, ![4, 49, 49]⟩
abbrev S1x4x49x49 : Shape := ⟨4, ![1, 4, 49, 49]⟩
abbrev S8x1024x4x49x49 : Shape := ⟨5, ![8, 1024, 4, 49, 49]⟩
abbrev S1x1024x1x49x49 : Shape := ⟨5, ![1, 1024, 1, 49, 49]⟩
abbrev S8192x4x49 : Shape := ⟨3, ![8192, 4, 49]⟩
abbrev S8192x4x49x1 : Shape := ⟨4, ![8192, 4, 49, 1]⟩
abbrev S8192x49x4x32 : Shape := ⟨4, ![8192, 49, 4, 32]⟩
abbrev S1x1x128 : Shape := ⟨3, ![1, 1, 128]⟩

abbrev nBuf : Space → Nat
  | .hbm => 59
  | .vmem => 0
  | .smem => 0
  | _ => 0

abbrev bufTy : (tb : Table) → Fin (tcTables nBuf tb) → BufTy
  | .hbm, ⟨0, _⟩ => ⟨S8192x49x128, .f32⟩
  | .hbm, ⟨1, _⟩ => ⟨S384x128, .f32⟩
  | .hbm, ⟨2, _⟩ => ⟨S128x128, .f32⟩
  | .hbm, ⟨3, _⟩ => ⟨S128, .f32⟩
  | .hbm, ⟨4, _⟩ => ⟨S169x4, .f32⟩
  | .hbm, ⟨5, _⟩ => ⟨S1024x49x49, .f32⟩
  | .hbm, ⟨6, _⟩ => ⟨S49x49, .i32⟩
  | .hbm, ⟨7, _⟩ => ⟨S8192x49x384, .f32⟩
  | .hbm, ⟨8, _⟩ => ⟨S8192x49x3x4x32, .f32⟩
  | .hbm, ⟨9, _⟩ => ⟨S3x8192x4x49x32, .f32⟩
  | .hbm, ⟨10, _⟩ => ⟨S1x8192x4x49x32, .f32⟩
  | .hbm, ⟨11, _⟩ => ⟨S8192x4x49x32, .f32⟩
  | .hbm, ⟨12, _⟩ => ⟨S1x8192x4x49x32, .f32⟩
  | .hbm, ⟨13, _⟩ => ⟨S8192x4x49x32, .f32⟩
  | .hbm, ⟨14, _⟩ => ⟨S1x8192x4x49x32, .f32⟩
  | .hbm, ⟨15, _⟩ => ⟨S8192x4x49x32, .f32⟩
  | .hbm, ⟨16, _⟩ => ⟨S_, .f32⟩
  | .hbm, ⟨17, _⟩ => ⟨S8192x4x49x32, .f32⟩
  | .hbm, ⟨18, _⟩ => ⟨S8192x4x49x32, .f32⟩
  | .hbm, ⟨19, _⟩ => ⟨S8192x4x49x49, .f32⟩
  | .hbm, ⟨20, _⟩ => ⟨S_, .i32⟩
  | .hbm, ⟨21, _⟩ => ⟨S49x49, .i32⟩
  | .hbm, ⟨22, _⟩ => ⟨S49x49, .i1⟩
  | .hbm, ⟨23, _⟩ => ⟨S_, .i32⟩
  | .hbm, ⟨24, _⟩ => ⟨S49x49, .i32⟩
  | .hbm, ⟨25, _⟩ => ⟨S49x49, .i32⟩
  | .hbm, ⟨26, _⟩ => ⟨S49x49, .i32⟩
  | .hbm, ⟨27, _⟩ => ⟨S49x49x1, .i32⟩
  | .hbm, ⟨28, _⟩ => ⟨S49x49x4, .f32⟩
  | .hbm, ⟨29, _⟩ => ⟨S4x49x49, .f32⟩
  | .hbm, ⟨30, _⟩ => ⟨S1x4x49x49, .f32⟩
  | .hbm, ⟨31, _⟩ => ⟨S8192x4x49x49, .f32⟩
  | .hbm, ⟨32, _⟩ => ⟨S8192x4x49x49, .f32⟩
  | .hbm, ⟨33, _⟩ => ⟨S8x1024x4x49x49, .f32⟩
  | .hbm, ⟨34, _⟩ => ⟨S1x1024x1x49x49, .f32⟩
  | .hbm, ⟨35, _⟩ => ⟨S8x1024x4x49x49, .f32⟩
  | .hbm, ⟨36, _⟩ => ⟨S8x1024x4x49x49, .f32⟩
  | .hbm, ⟨37, _⟩ => ⟨S8192x4x49x49, .f32⟩
  | .hbm, ⟨38, _⟩ => ⟨S_, .f32⟩
  | .hbm, ⟨39, _⟩ => ⟨S8192x4x49, .f32⟩
  | .hbm, ⟨40, _⟩ => ⟨S_, .f32⟩
  | .hbm, ⟨41, _⟩ => ⟨S8192x4x49, .f32⟩
  | .hbm, ⟨42, _⟩ => ⟨S8192x4x49, .f32⟩
  | .hbm, ⟨43, _⟩ => ⟨S8192x4x49x1, .f32⟩
  | .hbm, ⟨44, _⟩ => ⟨S8192x4x49x49, .f32⟩
  | .hbm, ⟨45, _⟩ => ⟨S8192x4x49x49, .f32⟩
  | .hbm, ⟨46, _⟩ => ⟨S8192x4x49x49, .f32⟩
  | .hbm, ⟨47, _⟩ => ⟨S_, .f32⟩
  | .hbm, ⟨48, _⟩ => ⟨S8192x4x49, .f32⟩
  | .hbm, ⟨49, _⟩ => ⟨S8192x4x49x1, .f32⟩
  | .hbm, ⟨50, _⟩ => ⟨S8192x4x49x49, .f32⟩
  | .hbm, ⟨51, _⟩ => ⟨S8192x4x49x49, .f32⟩
  | .hbm, ⟨52, _⟩ => ⟨S8192x4x49x32, .f32⟩
  | .hbm, ⟨53, _⟩ => ⟨S8192x49x4x32, .f32⟩
  | .hbm, ⟨54, _⟩ => ⟨S8192x49x128, .f32⟩
  | .hbm, ⟨55, _⟩ => ⟨S8192x49x128, .f32⟩
  | .hbm, ⟨56, _⟩ => ⟨S1x1x128, .f32⟩
  | .hbm, ⟨57, _⟩ => ⟨S8192x49x128, .f32⟩
  | .hbm, ⟨58, _⟩ => ⟨S8192x49x128, .f32⟩
  | _, _ => ⟨S8192x49x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_1 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩

abbrev nD : Nat := 1
abbrev τ : Topo := Topo.v7x

variable {F : FTy → Type} [FloatOps F]

class Facts₀ : Prop where
  shapeCasts_S8192x49x384_S8192x49x3x4x32 : S8192x49x384.ShapeCasts S8192x49x3x4x32
  transposes_S8192x49x3x4x32_S3x8192x4x49x32_2_0_3_1_4 : S8192x49x3x4x32.Transposes [2, 0, 3, 1, 4] S3x8192x4x49x32
  slices_S3x8192x4x49x32_S1x8192x4x49x32_0_0_0_0_0 : S3x8192x4x49x32.Slices ![0, 0, 0, 0, 0] S1x8192x4x49x32
  shapeCasts_S1x8192x4x49x32_S8192x4x49x32 : S1x8192x4x49x32.ShapeCasts S8192x4x49x32
  slices_S3x8192x4x49x32_S1x8192x4x49x32_1_0_0_0_0 : S3x8192x4x49x32.Slices ![1, 0, 0, 0, 0] S1x8192x4x49x32
  slices_S3x8192x4x49x32_S1x8192x4x49x32_2_0_0_0_0 : S3x8192x4x49x32.Slices ![2, 0, 0, 0, 0] S1x8192x4x49x32
  bcast_S_S8192x4x49x32 : S_.BroadcastsInDim S8192x4x49x32 (![] : Fin 0 → Fin S8192x4x49x32.rank)
  bcast_S_S49x49 : S_.BroadcastsInDim S49x49 (![] : Fin 0 → Fin S49x49.rank)
  bcast_S49x49_S49x49x1_0_1 : S49x49.BroadcastsInDim S49x49x1 (![0, 1] : Fin 2 → Fin S49x49x1.rank)
  transposes_S49x49x4_S4x49x49_2_0_1 : S49x49x4.Transposes [2, 0, 1] S4x49x49
  bcast_S4x49x49_S1x4x49x49_1_2_3 : S4x49x49.BroadcastsInDim S1x4x49x49 (![1, 2, 3] : Fin 3 → Fin S1x4x49x49.rank)
  bcast_S1x4x49x49_S8192x4x49x49_0_1_2_3 : S1x4x49x49.BroadcastsInDim S8192x4x49x49 (![0, 1, 2, 3] : Fin 4 → Fin S8192x4x49x49.rank)
  shapeCasts_S8192x4x49x49_S8x1024x4x49x49 : S8192x4x49x49.ShapeCasts S8x1024x4x49x49
  bcast_S1024x49x49_S1x1024x1x49x49_1_3_4 : S1024x49x49.BroadcastsInDim S1x1024x1x49x49 (![1, 3, 4] : Fin 3 → Fin S1x1024x1x49x49.rank)
  bcast_S1x1024x1x49x49_S8x1024x4x49x49_0_1_2_3_4 : S1x1024x1x49x49.BroadcastsInDim S8x1024x4x49x49 (![0, 1, 2, 3, 4] : Fin 5 → Fin S8x1024x4x49x49.rank)
  shapeCasts_S8x1024x4x49x49_S8192x4x49x49 : S8x1024x4x49x49.ShapeCasts S8192x4x49x49
  reducesTo_S8192x4x49x49_S8192x4x49_d3 : S8192x4x49x49.ReducesTo [3] S8192x4x49
  h_S_ : 0 < S_.numel
  bcast_S_S8192x4x49 : S_.BroadcastsInDim S8192x4x49 (![] : Fin 0 → Fin S8192x4x49.rank)
  bcast_S8192x4x49_S8192x4x49x1_0_1_2 : S8192x4x49.BroadcastsInDim S8192x4x49x1 (![0, 1, 2] : Fin 3 → Fin S8192x4x49x1.rank)
  bcast_S8192x4x49x1_S8192x4x49x49_0_1_2_3 : S8192x4x49x1.BroadcastsInDim S8192x4x49x49 (![0, 1, 2, 3] : Fin 4 → Fin S8192x4x49x49.rank)
  transposes_S8192x4x49x32_S8192x49x4x32_0_2_1_3 : S8192x4x49x32.Transposes [0, 2, 1, 3] S8192x49x4x32
  shapeCasts_S8192x49x4x32_S8192x49x128 : S8192x49x4x32.ShapeCasts S8192x49x128
  bcast_S128_S1x1x128_2 : S128.BroadcastsInDim S1x1x128 (![2] : Fin 1 → Fin S1x1x128.rank)
  bcast_S1x1x128_S8192x49x128_0_1_2 : S1x1x128.BroadcastsInDim S8192x49x128 (![0, 1, 2] : Fin 3 → Fin S8192x49x128.rank)
  dot_S8192x49x128_S384x128_S8192x49x384_2_1_01_0_n_n_wf : DotDims.WF S8192x49x128 S384x128 S8192x49x384 [2] [1] [0, 1] [0] [] []
  dot_S8192x4x49x32_S8192x4x49x32_S8192x4x49x49_3_3_2_2_01_01_wf : DotDims.WF S8192x4x49x32 S8192x4x49x32 S8192x4x49x49 [3] [3] [2] [2] [0, 1] [0, 1]
  gather_S169x4_S49x49x1_S49x49x4_2_0_n_n_0_2_14_wf : GatherDims.WF S169x4 S49x49x1 S49x49x4 [2] [0] [] [0] [] 2 ![1, 4]
  dot_S8192x4x49x49_S8192x4x49x32_S8192x4x49x32_3_2_2_3_01_01_wf : DotDims.WF S8192x4x49x49 S8192x4x49x32 S8192x4x49x32 [3] [2] [2] [3] [0, 1] [0, 1]
  dot_S8192x49x128_S128x128_S8192x49x128_2_1_01_0_n_n_wf : DotDims.WF S8192x49x128 S128x128 S8192x49x128 [2] [1] [0, 1] [0] [] []

variable [Facts₀]

def dot_S8192x49x128_S384x128_S8192x49x384_2_1_01_0_n_n : DotDims S8192x49x128 S384x128 S8192x49x384 where
  lhsContracting := [2]
  rhsContracting := [1]
  lhsNonContracting := [0, 1]
  rhsNonContracting := [0]
  lhsBatch := []
  rhsBatch := []
  wf := dot_S8192x49x128_S384x128_S8192x49x384_2_1_01_0_n_n_wf
def dot_S8192x4x49x32_S8192x4x49x32_S8192x4x49x49_3_3_2_2_01_01 : DotDims S8192x4x49x32 S8192x4x49x32 S8192x4x49x49 where
  lhsContracting := [3]
  rhsContracting := [3]
  lhsNonContracting := [2]
  rhsNonContracting := [2]
  lhsBatch := [0, 1]
  rhsBatch := [0, 1]
  wf := dot_S8192x4x49x32_S8192x4x49x32_S8192x4x49x49_3_3_2_2_01_01_wf
def gather_S169x4_S49x49x1_S49x49x4_2_0_n_n_0_2_14 : GatherDims S169x4 S49x49x1 S49x49x4 where
  offsetDims := [2]
  collapsedSliceDims := [0]
  operandBatchingDims := []
  startIndicesBatchingDims := []
  startIndexMap := [0]
  indexVectorDim := 2
  sliceSizes := ![1, 4]
  wf := gather_S169x4_S49x49x1_S49x49x4_2_0_n_n_0_2_14_wf
def dot_S8192x4x49x49_S8192x4x49x32_S8192x4x49x32_3_2_2_3_01_01 : DotDims S8192x4x49x49 S8192x4x49x32 S8192x4x49x32 where
  lhsContracting := [3]
  rhsContracting := [2]
  lhsNonContracting := [2]
  rhsNonContracting := [3]
  lhsBatch := [0, 1]
  rhsBatch := [0, 1]
  wf := dot_S8192x4x49x49_S8192x4x49x32_S8192x4x49x32_3_2_2_3_01_01_wf
def dot_S8192x49x128_S128x128_S8192x49x128_2_1_01_0_n_n : DotDims S8192x49x128 S128x128 S8192x49x128 where
  lhsContracting := [2]
  rhsContracting := [1]
  lhsNonContracting := [0, 1]
  rhsNonContracting := [0]
  lhsBatch := []
  rhsBatch := []
  wf := dot_S8192x49x128_S128x128_S8192x49x128_2_1_01_0_n_n_wf

class Facts : Prop extends Facts₀ where

variable [Facts]
-- ==== Proof.Spec.lean ====
/-
  Window attention on one window of 49 tokens with 128 channels in 4 heads of 32, as ONE function on the
  extended reals. A window's tokens `xb n c` are projected by the rows of the stacked matrix `W` (rows
  0–127 the queries, 128–255 the keys, 256–383 the values; row `s·128 + 32·h + d` is channel `d` of head
  `h`), the queries scaled; a head's logits are the query–key products plus the head's relative-position
  bias plus the window's mask; each row of logits is turned into weights by a softmax (subtract the row's
  maximum, exponentiate, divide by the row's sum); a head's output is the weighted sum of its values; the
  heads' outputs, side by side, are projected by `Pw` and shifted by `pb`.
-/
import Idealize.ShloMosaic.PureOps.Ideal
import Idealize.ShloMosaic.Lib.ValueIdx

noncomputable section

namespace Cert.WinAttn

open Idealize.ShloMosaic

/-- Row `s·128 + 32·h + d` of the stacked projection matrix: channel `d` of head `h` of part `s`
    (0 queries, 1 keys, 2 values). -/
def wrow (s : Fin 3) (h : Fin 4) (d : Fin 32) : Fin 384 :=
  ⟨s.val * 128 + h.val * 32 + d.val, by have := s.isLt; have := h.isLt; have := d.isLt; omega⟩

/-- The head of channel `c` of 128. -/
def headOf (c : Fin 128) : Fin 4 := ⟨c.val / 32, by have := c.isLt; omega⟩

/-- The place of channel `c` of 128 inside its head. -/
def chanOf (c : Fin 128) : Fin 32 := ⟨c.val % 32, by omega⟩

/-- The value `-∞` a row maximum starts from. -/
def negInf : EReal := Ideal.ofBits .f32 0xFF800000#32

/-- The scale of the queries: the f32 nearest to 32^(-1/2), as an exact dyadic. -/
def scale : EReal := Ideal.ofBits .f32 0x3E3504F3#32

variable (xb : Fin 49 → Fin 128 → EReal) (W : Fin 384 → Fin 128 → EReal)
  (Pw : Fin 128 → Fin 128 → EReal) (pb : Fin 128 → EReal)
  (bias : Fin 4 → Fin 49 → Fin 49 → EReal) (mk : Fin 49 → Fin 49 → EReal)

/-- Token `n` projected on row `wrow s h d`. -/
def proj (s : Fin 3) (h : Fin 4) (n : Fin 49) (d : Fin 32) : EReal :=
  ∑ c : Fin 128, xb n c * W (wrow s h d) c

/-- The logit of query token `n` against key token `m` in head `h`. -/
def logit (h : Fin 4) (n m : Fin 49) : EReal :=
  (∑ d : Fin 32, (proj xb W 0 h n d * scale) * proj xb W 1 h m d + bias h n m) + mk n m

/-- The maximum of row `n` of head `h`'s logits (from `-∞`, and once more against `-∞`). -/
def rowMax (h : Fin 4) (n : Fin 49) : EReal :=
  max negInf ((Finset.univ : Finset (Fin 49)).fold max negInf (logit xb W bias mk h n))

/-- The exponential of a logit less its row's maximum. -/
def expo (h : Fin 4) (n m : Fin 49) : EReal :=
  Ideal.exp (logit xb W bias mk h n m - rowMax xb W bias mk h n)

/-- The softmax weight of key token `m` for query token `n` in head `h`. -/
def weight (h : Fin 4) (n m : Fin 49) : EReal :=
  Ideal.div (expo xb W bias mk h n m) (∑ m' : Fin 49, expo xb W bias mk h n m')

/-- Head `h`'s output for token `n`, channel `d`: the weighted sum of the head's values. -/
def headOut (h : Fin 4) (n : Fin 49) (d : Fin 32) : EReal :=
  ∑ m : Fin 49, weight xb W bias mk h n m * proj xb W 2 h m d

/-- The window's output for token `n`, channel `o`. -/
def out (n : Fin 49) (o : Fin 128) : EReal :=
  (∑ c : Fin 128, headOut xb W bias mk (headOf c) n (chanOf c) * Pw o c) + pb o

end Cert.WinAttn

end
-- ==== Proof.RefIsSpec.lean ====
/-
  The reference program, read one element at a time, is the window-attention specification.

  For window B, token n and output channel o, the reference's result is followed back through its
  operations: the stacked projection x·Wᵀ, whose 384 rows split as part × head × channel (row
  s·128 + 32·h + d), gives the queries, keys and values of each head; the scaled query–key products
  plus the head's relative-position bias plus the mask of window B mod 1024 (the windows regrouped as
  8 images of 1024 windows and back) are the logits; a row of logits becomes weights by subtracting
  the row's maximum, exponentiating and dividing by the row's sum, whose initial 0 adds nothing; the
  weighted sums of the values, the heads side by side (channel c is channel c mod 32 of head c / 32),
  are projected and shifted. Each step is one lemma at explicit coordinates; the only arithmetic is
  that of the reshapes' row-major positions. The relative-position bias is kept as the array the
  reference gathers; its gather is not opened.
-/
import proofs.«155753_j884763263594_1_alg».proof.Proof.Gen.ReferenceIdeal.Read
import proofs.«155753_j884763263594_1_alg».proof.Proof.Spec
import Idealize.ShloMosaic.Lib.ValueIdx
import Idealize.ShloMosaic.Lib.Pipeline.Value
import Idealize.ShloMosaic.PureOps.Ideal.Laws

noncomputable section

namespace Cert.RefValue

open Idealize.ShloMosaic Idealize.ShloMosaic.ValueIdx Cert.ReferenceIdeal Cert.ReferenceIdeal.Read

variable (x0 : (⟨S8192x49x128, .f32⟩ : BufTy).Contents (Elt Ideal)) (x1 : (⟨S384x128, .f32⟩ : BufTy).Contents (Elt Ideal))
  (x2 : (⟨S128x128, .f32⟩ : BufTy).Contents (Elt Ideal)) (x3 : (⟨S128, .f32⟩ : BufTy).Contents (Elt Ideal))
  (x4 : (⟨S169x4, .f32⟩ : BufTy).Contents (Elt Ideal)) (x5 : (⟨S1024x49x49, .f32⟩ : BufTy).Contents (Elt Ideal))
  (x6 : (⟨S49x49, .i32⟩ : BufTy).Contents (Elt Ideal))

/-! ### The stacked projection: element (B, n, r) of x·Wᵀ is the product of token n with row r. -/

theorem v0_at (B : Fin 8192) (n : Fin 49) (r : Fin 384) :
    val_main_v0 (F := Ideal) x0 x1 (ix3 B n r) = ∑ c : Fin 128, x0 (ix3 B n c) * x1 (ix2 r c) := by
  rw [val_main_v0_apply]
  refine Finset.sum_congr rfl fun k _ => ?_
  have el : lidx_main_v0 (ix3 B n r) k = ix3 B n k := funext fun a => by
    match a with
    | ⟨0, _⟩ => rfl
    | ⟨1, _⟩ => rfl
    | ⟨2, _⟩ => rfl
  have er : ridx_main_v0 (ix3 B n r) k = ix2 r k := funext fun a => by
    match a with
    | ⟨0, _⟩ => rfl
    | ⟨1, _⟩ => rfl
  rw [el, er]

/-- Splitting the 384 rows as part × head × channel: row s·128 + 32·h + d. -/
theorem idx1_at (B : Fin 8192) (n : Fin 49) (s : Fin 3) (h : Fin 4) (d : Fin 32) :
    idx_main_v1 (ix5 B n s h d) = ix3 B n (Cert.WinAttn.wrow s h d) := funext fun a => Fin.ext (by
  have hB := B.isLt; have hn := n.isLt; have hs := s.isLt; have hh := h.isLt; have hd := d.isLt
  match a with
  | ⟨0, _⟩ => show ((((B.val * 49 + n.val) * 3 + s.val) * 4 + h.val) * 32 + d.val) / 18816 = B.val; omega
  | ⟨1, _⟩ => show ((((B.val * 49 + n.val) * 3 + s.val) * 4 + h.val) * 32 + d.val) / 384 % 49 = n.val; omega
  | ⟨2, _⟩ => show ((((B.val * 49 + n.val) * 3 + s.val) * 4 + h.val) * 32 + d.val) % 384 = s.val * 128 + h.val * 32 + d.val; omega)

/-- Part s of the transposed projection, at (B, h, n, d), is token n on row wrow s h d. -/
theorem v2_at (B : Fin 8192) (s : Fin 3) (h : Fin 4) (n : Fin 49) (d : Fin 32) :
    val_main_v2 (F := Ideal) x0 x1 (ix5 s B h n d)
      = Cert.WinAttn.proj (fun n c => x0 (ix3 B n c)) (fun r c => x1 (ix2 r c)) s h n d := by
  rw [val_main_v2_apply, val_main_v1_apply]
  have e2 : idx_main_v2 (ix5 s B h n d) = ix5 B n s h d := funext fun a => by
    match a with
    | ⟨0, _⟩ => rfl
    | ⟨1, _⟩ => rfl
    | ⟨2, _⟩ => rfl
    | ⟨3, _⟩ => rfl
    | ⟨4, _⟩ => rfl
  rw [e2, idx1_at, v0_at]
  rfl

/-- Dropping the leading unit axis of a [1, 8192, 4, 49, 32] index. -/
theorem idx4_at (B : Fin 8192) (h : Fin 4) (n : Fin 49) (d : Fin 32) :
    idx_main_v4 (ix4 B h n d) = ix5 (0 : Fin 1) B h n d := funext fun a => Fin.ext (by
  have hB := B.isLt; have hn := n.isLt; have hh := h.isLt; have hd := d.isLt
  match a with
  | ⟨0, _⟩ => rfl
  | ⟨1, _⟩ => show (((B.val * 4 + h.val) * 49 + n.val) * 32 + d.val) / 6272 % 8192 = B.val; omega
  | ⟨2, _⟩ => show (((B.val * 4 + h.val) * 49 + n.val) * 32 + d.val) / 1568 % 4 = h.val; omega
  | ⟨3, _⟩ => show (((B.val * 4 + h.val) * 49 + n.val) * 32 + d.val) / 32 % 49 = n.val; omega
  | ⟨4, _⟩ => show (((B.val * 4 + h.val) * 49 + n.val) * 32 + d.val) % 32 = d.val; omega)

theorem v4_at (B : Fin 8192) (h : Fin 4) (n : Fin 49) (d : Fin 32) :
    val_main_v4 (F := Ideal) x0 x1 (ix4 B h n d)
      = Cert.WinAttn.proj (fun n c => x0 (ix3 B n c)) (fun r c => x1 (ix2 r c)) 0 h n d := by
  rw [val_main_v4_apply, val_main_v3_apply, idx4_at]
  have e3 : idx_main_v3 (ix5 (0 : Fin 1) B h n d) = ix5 (0 : Fin 3) B h n d := funext fun a => by
    match a with
    | ⟨0, _⟩ => rfl
    | ⟨1, _⟩ => rfl
    | ⟨2, _⟩ => rfl
    | ⟨3, _⟩ => rfl
    | ⟨4, _⟩ => rfl
  rw [e3, v2_at]

theorem v6_at (B : Fin 8192) (h : Fin 4) (n : Fin 49) (d : Fin 32) :
    val_main_v6 (F := Ideal) x0 x1 (ix4 B h n d)
      = Cert.WinAttn.proj (fun n c => x0 (ix3 B n c)) (fun r c => x1 (ix2 r c)) 1 h n d := by
  rw [val_main_v6_apply, val_main_v5_apply]
  have e6 : idx_main_v6 (ix4 B h n d) = ix5 (0 : Fin 1) B h n d := idx4_at B h n d
  have e5 : idx_main_v5 (ix5 (0 : Fin 1) B h n d) = ix5 (1 : Fin 3) B h n d := funext fun a => by
    match a with
    | ⟨0, _⟩ => rfl
    | ⟨1, _⟩ => rfl
    | ⟨2, _⟩ => rfl
    | ⟨3, _⟩ => rfl
    | ⟨4, _⟩ => rfl
  rw [e6, e5, v2_at]

theorem v8_at (B : Fin 8192) (h : Fin 4) (n : Fin 49) (d : Fin 32) :
    val_main_v8 (F := Ideal) x0 x1 (ix4 B h n d)
      = Cert.WinAttn.proj (fun n c => x0 (ix3 B n c)) (fun r c => x1 (ix2 r c)) 2 h n d := by
  rw [val_main_v8_apply, val_main_v7_apply]
  have e8 : idx_main_v8 (ix4 B h n d) = ix5 (0 : Fin 1) B h n d := idx4_at B h n d
  have e7 : idx_main_v7 (ix5 (0 : Fin 1) B h n d) = ix5 (2 : Fin 3) B h n d := funext fun a => by
    match a with
    | ⟨0, _⟩ => rfl
    | ⟨1, _⟩ => rfl
    | ⟨2, _⟩ => rfl
    | ⟨3, _⟩ => rfl
    | ⟨4, _⟩ => rfl
  rw [e8, e7, v2_at]

/-! ### The logits: scaled query–key products, plus the head's bias, plus the window's mask. -/

theorem v10_at (B : Fin 8192) (h : Fin 4) (n : Fin 49) (d : Fin 32) :
    val_main_v10 (F := Ideal) x0 x1 (ix4 B h n d)
      = Cert.WinAttn.proj (fun n c => x0 (ix3 B n c)) (fun r c => x1 (ix2 r c)) 0 h n d * Cert.WinAttn.scale := by
  rw [val_main_v10_apply, v4_at, val_main_v9_apply, val_main_cst_apply]
  rfl

theorem v11_at (B : Fin 8192) (h : Fin 4) (n m : Fin 49) :
    val_main_v11 (F := Ideal) x0 x1 (ix4 B h n m)
      = ∑ d : Fin 32, (Cert.WinAttn.proj (fun n c => x0 (ix3 B n c)) (fun r c => x1 (ix2 r c)) 0 h n d * Cert.WinAttn.scale)
          * Cert.WinAttn.proj (fun n c => x0 (ix3 B n c)) (fun r c => x1 (ix2 r c)) 1 h m d := by
  rw [val_main_v11_apply]
  refine Finset.sum_congr rfl fun k _ => ?_
  have el : lidx_main_v11 (ix4 B h n m) k = ix4 B h n k := funext fun a => by
    match a with
    | ⟨0, _⟩ => rfl
    | ⟨1, _⟩ => rfl
    | ⟨2, _⟩ => rfl
    | ⟨3, _⟩ => rfl
  have er : ridx_main_v11 (ix4 B h n m) k = ix4 B h m k := funext fun a => by
    match a with
    | ⟨0, _⟩ => rfl
    | ⟨1, _⟩ => rfl
    | ⟨2, _⟩ => rfl
    | ⟨3, _⟩ => rfl
  rw [el, er, v10_at, v6_at]

/-- The bias broadcast over the windows reads the head's table at (h, n, m). -/
theorem v21_at (B : Fin 8192) (h : Fin 4) (n m : Fin 49) :
    val_main_v21 (F := Ideal) x4 x6 (ix4 B h n m) = val_main_v19 (F := Ideal) x4 x6 (ix3 h n m) := by
  rw [val_main_v21_apply, val_main_v20_apply]
  refine congrArg _ (funext fun a => ?_)
  match a with
  | ⟨0, _⟩ => rfl
  | ⟨1, _⟩ => rfl
  | ⟨2, _⟩ => rfl

theorem v22_at (B : Fin 8192) (h : Fin 4) (n m : Fin 49) :
    val_main_v22 (F := Ideal) x0 x1 x4 x6 (ix4 B h n m)
      = (∑ d : Fin 32, (Cert.WinAttn.proj (fun n c => x0 (ix3 B n c)) (fun r c => x1 (ix2 r c)) 0 h n d * Cert.WinAttn.scale)
          * Cert.WinAttn.proj (fun n c => x0 (ix3 B n c)) (fun r c => x1 (ix2 r c)) 1 h m d)
        + val_main_v19 (F := Ideal) x4 x6 (ix3 h n m) := by
  rw [val_main_v22_apply, v11_at, v21_at]
  rfl

/-- Window B of 8192 is window B mod 1024 of image B / 1024. -/
theorem idx27_at (B : Fin 8192) (h : Fin 4) (n m : Fin 49) :
    idx_main_v27 (ix4 B h n m)
      = ix5 (⟨B.val / 1024, by have := B.isLt; omega⟩ : Fin 8) (⟨B.val % 1024, Nat.mod_lt _ (by decide)⟩ : Fin 1024) h n m :=
  funext fun a => Fin.ext (by
  have hB := B.isLt; have hn := n.isLt; have hh := h.isLt; have hm := m.isLt
  match a with
  | ⟨0, _⟩ => show (((B.val * 4 + h.val) * 49 + n.val) * 49 + m.val) / 9834496 = B.val / 1024; omega
  | ⟨1, _⟩ => show (((B.val * 4 + h.val) * 49 + n.val) * 49 + m.val) / 9604 % 1024 = B.val % 1024; omega
  | ⟨2, _⟩ => show (((B.val * 4 + h.val) * 49 + n.val) * 49 + m.val) / 2401 % 4 = h.val; omega
  | ⟨3, _⟩ => show (((B.val * 4 + h.val) * 49 + n.val) * 49 + m.val) / 49 % 49 = n.val; omega
  | ⟨4, _⟩ => show (((B.val * 4 + h.val) * 49 + n.val) * 49 + m.val) % 49 = m.val; omega)

theorem idx23_at (B : Fin 8192) (h : Fin 4) (n m : Fin 49) :
    idx_main_v23 (ix5 (⟨B.val / 1024, by have := B.isLt; omega⟩ : Fin 8) (⟨B.val % 1024, Nat.mod_lt _ (by decide)⟩ : Fin 1024) h n m)
      = ix4 B h n m :=
  funext fun a => Fin.ext (by
  have hB := B.isLt; have hn := n.isLt; have hh := h.isLt; have hm := m.isLt
  match a with
  | ⟨0, _⟩ => show (((((B.val / 1024) * 1024 + B.val % 1024) * 4 + h.val) * 49 + n.val) * 49 + m.val) / 9604 = B.val; omega
  | ⟨1, _⟩ => show (((((B.val / 1024) * 1024 + B.val % 1024) * 4 + h.val) * 49 + n.val) * 49 + m.val) / 2401 % 4 = h.val; omega
  | ⟨2, _⟩ => show (((((B.val / 1024) * 1024 + B.val % 1024) * 4 + h.val) * 49 + n.val) * 49 + m.val) / 49 % 49 = n.val; omega
  | ⟨3, _⟩ => show (((((B.val / 1024) * 1024 + B.val % 1024) * 4 + h.val) * 49 + n.val) * 49 + m.val) % 49 = m.val; omega)

/-- The mask broadcast over images and heads reads window b's mask at (n, m). -/
theorem v25_at (a : Fin 8) (b : Fin 1024) (h : Fin 4) (n m : Fin 49) :
    val_main_v25 (F := Ideal) x5 (ix5 a b h n m) = x5 (ix3 b n m) := by
  rw [val_main_v25_apply, val_main_v24_apply]
  refine congrArg _ (funext fun c => ?_)
  match c with
  | ⟨0, _⟩ => rfl
  | ⟨1, _⟩ => rfl
  | ⟨2, _⟩ => rfl

theorem v27_at (B : Fin 8192) (h : Fin 4) (n m : Fin 49) :
    val_main_v27 (F := Ideal) x0 x1 x4 x5 x6 (ix4 B h n m)
      = Cert.WinAttn.logit (fun n c => x0 (ix3 B n c)) (fun r c => x1 (ix2 r c))
          (fun h n m => val_main_v19 (F := Ideal) x4 x6 (ix3 h n m))
          (fun n m => x5 (ix3 (⟨B.val % 1024, Nat.mod_lt _ (by decide)⟩ : Fin 1024) n m)) h n m := by
  rw [val_main_v27_apply, idx27_at, val_main_v26_apply, val_main_v23_apply, idx23_at, v22_at, v25_at]
  rfl

/-! ### The softmax: row maximum, exponentials, row sums, weights. -/

/-- The reduction over the last axis of a [8192, 4, 49, 49] array reads, at (B, h, n), the elements (B, h, n, k). -/
theorem lift_at (hR : S8192x4x49x49.Reduces [(3 : Fin S8192x4x49x49.rank)] S8192x4x49)
    (B : Fin 8192) (h : Fin 4) (n : Fin 49) (k : Fin 49) :
    hR.lift (ix3 B h n) k = ix4 B h n k := funext fun a => Fin.ext (by
  match a with
  | ⟨0, _⟩ => rfl
  | ⟨1, _⟩ => rfl
  | ⟨2, _⟩ => rfl
  | ⟨3, _⟩ => rfl)

theorem v28_at (B : Fin 8192) (h : Fin 4) (n : Fin 49) :
    val_main_v28 (F := Ideal) x0 x1 x4 x5 x6 (ix3 B h n)
      = (Finset.univ : Finset (Fin 49)).fold max Cert.WinAttn.negInf
          (Cert.WinAttn.logit (fun n c => x0 (ix3 B n c)) (fun r c => x1 (ix2 r c))
            (fun h n m => val_main_v19 (F := Ideal) x4 x6 (ix3 h n m))
            (fun n m => x5 (ix3 (⟨B.val % 1024, Nat.mod_lt _ (by decide)⟩ : Fin 1024) n m)) h n) := by
  have hR : S8192x4x49x49.Reduces [(3 : Fin S8192x4x49x49.rank)] S8192x4x49 := by decide
  unfold val_main_v28
  refine (Host.reduce_eq_fold_single FloatOps.maximumf _ _ _ hR _ (ix3 B h n)).trans ?_
  show (Finset.univ : Finset (Fin 49)).fold max Cert.WinAttn.negInf _ = _
  refine Finset.fold_congr fun k _ => ?_
  show val_main_v27 (F := Ideal) x0 x1 x4 x5 x6 (hR.lift (ix3 B h n) k) = _
  rw [lift_at, v27_at]

theorem v30_at (B : Fin 8192) (h : Fin 4) (n : Fin 49) :
    val_main_v30 (F := Ideal) x0 x1 x4 x5 x6 (ix3 B h n)
      = Cert.WinAttn.rowMax (fun n c => x0 (ix3 B n c)) (fun r c => x1 (ix2 r c))
          (fun h n m => val_main_v19 (F := Ideal) x4 x6 (ix3 h n m))
          (fun n m => x5 (ix3 (⟨B.val % 1024, Nat.mod_lt _ (by decide)⟩ : Fin 1024) n m)) h n := by
  rw [val_main_v30_apply, val_main_v29_apply, val_main_cst_2_apply, v28_at]
  rfl

theorem v32_at (B : Fin 8192) (h : Fin 4) (n m : Fin 49) :
    val_main_v32 (F := Ideal) x0 x1 x4 x5 x6 (ix4 B h n m)
      = Cert.WinAttn.rowMax (fun n c => x0 (ix3 B n c)) (fun r c => x1 (ix2 r c))
          (fun h n m => val_main_v19 (F := Ideal) x4 x6 (ix3 h n m))
          (fun n m => x5 (ix3 (⟨B.val % 1024, Nat.mod_lt _ (by decide)⟩ : Fin 1024) n m)) h n := by
  rw [val_main_v32_apply, val_main_v31_apply]
  have e : idx_main_v31 (idx_main_v32 (ix4 B h n m)) = ix3 B h n := funext fun a => by
    match a with
    | ⟨0, _⟩ => rfl
    | ⟨1, _⟩ => rfl
    | ⟨2, _⟩ => rfl
  rw [e, v30_at]

theorem v34_at (B : Fin 8192) (h : Fin 4) (n m : Fin 49) :
    val_main_v34 (F := Ideal) x0 x1 x4 x5 x6 (ix4 B h n m)
      = Cert.WinAttn.expo (fun n c => x0 (ix3 B n c)) (fun r c => x1 (ix2 r c))
          (fun h n m => val_main_v19 (F := Ideal) x4 x6 (ix3 h n m))
          (fun n m => x5 (ix3 (⟨B.val % 1024, Nat.mod_lt _ (by decide)⟩ : Fin 1024) n m)) h n m := by
  rw [val_main_v34_apply, val_main_v33_apply, v27_at, v32_at]
  rfl

/-- The row sum starts from the literal 0, which adds nothing. -/
theorem v35_at (B : Fin 8192) (h : Fin 4) (n : Fin 49) :
    val_main_v35 (F := Ideal) x0 x1 x4 x5 x6 (ix3 B h n)
      = ∑ m' : Fin 49, Cert.WinAttn.expo (fun n c => x0 (ix3 B n c)) (fun r c => x1 (ix2 r c))
          (fun h n m => val_main_v19 (F := Ideal) x4 x6 (ix3 h n m))
          (fun n m => x5 (ix3 (⟨B.val % 1024, Nat.mod_lt _ (by decide)⟩ : Fin 1024) n m)) h n m' := by
  rw [val_main_v35_apply, val_main_cst_3_apply, Ideal.ofBits_def, Ideal.ofBits_zero_f32, zero_add]
  refine Finset.sum_congr rfl fun k _ => ?_
  have e : idx_main_v35 (ix3 B h n) k = ix4 B h n k := funext fun a => by
    match a with
    | ⟨0, _⟩ => rfl
    | ⟨1, _⟩ => rfl
    | ⟨2, _⟩ => rfl
    | ⟨3, _⟩ => rfl
  rw [e, v34_at]

theorem v37_at (B : Fin 8192) (h : Fin 4) (n m : Fin 49) :
    val_main_v37 (F := Ideal) x0 x1 x4 x5 x6 (ix4 B h n m)
      = ∑ m' : Fin 49, Cert.WinAttn.expo (fun n c => x0 (ix3 B n c)) (fun r c => x1 (ix2 r c))
          (fun h n m => val_main_v19 (F := Ideal) x4 x6 (ix3 h n m))
          (fun n m => x5 (ix3 (⟨B.val % 1024, Nat.mod_lt _ (by decide)⟩ : Fin 1024) n m)) h n m' := by
  rw [val_main_v37_apply, val_main_v36_apply]
  have e : idx_main_v36 (idx_main_v37 (ix4 B h n m)) = ix3 B h n := funext fun a => by
    match a with
    | ⟨0, _⟩ => rfl
    | ⟨1, _⟩ => rfl
    | ⟨2, _⟩ => rfl
  rw [e, v35_at]

theorem v38_at (B : Fin 8192) (h : Fin 4) (n m : Fin 49) :
    val_main_v38 (F := Ideal) x0 x1 x4 x5 x6 (ix4 B h n m)
      = Cert.WinAttn.weight (fun n c => x0 (ix3 B n c)) (fun r c => x1 (ix2 r c))
          (fun h n m => val_main_v19 (F := Ideal) x4 x6 (ix3 h n m))
          (fun n m => x5 (ix3 (⟨B.val % 1024, Nat.mod_lt _ (by decide)⟩ : Fin 1024) n m)) h n m := by
  rw [val_main_v38_apply, v34_at, v37_at]
  rfl

/-! ### The heads' outputs, side by side, projected and shifted. -/

theorem v39_at (B : Fin 8192) (h : Fin 4) (n : Fin 49) (d : Fin 32) :
    val_main_v39 (F := Ideal) x0 x1 x4 x5 x6 (ix4 B h n d)
      = Cert.WinAttn.headOut (fun n c => x0 (ix3 B n c)) (fun r c => x1 (ix2 r c))
          (fun h n m => val_main_v19 (F := Ideal) x4 x6 (ix3 h n m))
          (fun n m => x5 (ix3 (⟨B.val % 1024, Nat.mod_lt _ (by decide)⟩ : Fin 1024) n m)) h n d := by
  rw [val_main_v39_apply]
  refine Finset.sum_congr rfl fun k _ => ?_
  have el : lidx_main_v39 (ix4 B h n d) k = ix4 B h n k := funext fun a => by
    match a with
    | ⟨0, _⟩ => rfl
    | ⟨1, _⟩ => rfl
    | ⟨2, _⟩ => rfl
    | ⟨3, _⟩ => rfl
  have er : ridx_main_v39 (ix4 B h n d) k = ix4 B h k d := funext fun a => by
    match a with
    | ⟨0, _⟩ => rfl
    | ⟨1, _⟩ => rfl
    | ⟨2, _⟩ => rfl
    | ⟨3, _⟩ => rfl
  rw [el, er, v38_at, v8_at]

/-- Channel c of 128 is channel c mod 32 of head c / 32. -/
theorem idx41_at (B : Fin 8192) (n : Fin 49) (c : Fin 128) :
    idx_main_v41 (ix3 B n c) = ix4 B n (Cert.WinAttn.headOf c) (Cert.WinAttn.chanOf c) := funext fun a => Fin.ext (by
  have hB := B.isLt; have hn := n.isLt; have hc := c.isLt
  match a with
  | ⟨0, _⟩ => show ((B.val * 49 + n.val) * 128 + c.val) / 6272 = B.val; omega
  | ⟨1, _⟩ => show ((B.val * 49 + n.val) * 128 + c.val) / 128 % 49 = n.val; omega
  | ⟨2, _⟩ => show ((B.val * 49 + n.val) * 128 + c.val) / 32 % 4 = c.val / 32; omega
  | ⟨3, _⟩ => show ((B.val * 49 + n.val) * 128 + c.val) % 32 = c.val % 32; omega)

theorem v41_at (B : Fin 8192) (n : Fin 49) (c : Fin 128) :
    val_main_v41 (F := Ideal) x0 x1 x4 x5 x6 (ix3 B n c)
      = Cert.WinAttn.headOut (fun n c => x0 (ix3 B n c)) (fun r c => x1 (ix2 r c))
          (fun h n m => val_main_v19 (F := Ideal) x4 x6 (ix3 h n m))
          (fun n m => x5 (ix3 (⟨B.val % 1024, Nat.mod_lt _ (by decide)⟩ : Fin 1024) n m)) (Cert.WinAttn.headOf c) n (Cert.WinAttn.chanOf c) := by
  rw [val_main_v41_apply, idx41_at, val_main_v40_apply]
  have e : idx_main_v40 (ix4 B n (Cert.WinAttn.headOf c) (Cert.WinAttn.chanOf c))
      = ix4 B (Cert.WinAttn.headOf c) n (Cert.WinAttn.chanOf c) := funext fun a => by
    match a with
    | ⟨0, _⟩ => rfl
    | ⟨1, _⟩ => rfl
    | ⟨2, _⟩ => rfl
    | ⟨3, _⟩ => rfl
  rw [e, v39_at]

theorem v44_at (B : Fin 8192) (n : Fin 49) (o : Fin 128) :
    val_main_v44 (F := Ideal) x3 (ix3 B n o) = x3 (ix1 o) := by
  rw [val_main_v44_apply, val_main_v43_apply]
  refine congrArg _ (funext fun a => ?_)
  match a with
  | ⟨0, _⟩ => rfl

/-- The reference, at window B, token n, channel o, is the specification of window B's tokens. -/
theorem ref_out (x0 : (⟨S8192x49x128, .f32⟩ : BufTy).Contents (Elt Ideal)) (x1 : (⟨S384x128, .f32⟩ : BufTy).Contents (Elt Ideal)) (x2 : (⟨S128x128, .f32⟩ : BufTy).Contents (Elt Ideal)) (x3 : (⟨S128, .f32⟩ : BufTy).Contents (Elt Ideal)) (x4 : (⟨S169x4, .f32⟩ : BufTy).Contents (Elt Ideal)) (x5 : (⟨S1024x49x49, .f32⟩ : BufTy).Contents (Elt Ideal)) (x6 : (⟨S49x49, .i32⟩ : BufTy).Contents (Elt Ideal))
    (B : Fin 8192) (n : Fin 49) (o : Fin 128) :
    val_main_v45 (F := Ideal) x0 x1 x2 x3 x4 x5 x6 (ix3 B n o)
      = Cert.WinAttn.out (fun n c => x0 (ix3 B n c)) (fun r c => x1 (ix2 r c)) (fun o c => x2 (ix2 o c)) (fun o => x3 (ix1 o))
          (fun h n m => val_main_v19 (F := Ideal) x4 x6 (ix3 h n m))
          (fun n m => x5 (ix3 (⟨B.val % 1024, Nat.mod_lt _ (by decide)⟩ : Fin 1024) n m)) n o := by
  rw [val_main_v45_apply, v44_at, val_main_v42_apply]
  have e : ∀ k : Fin 128,
      val_main_v41 (F := Ideal) x0 x1 x4 x5 x6 (lidx_main_v42 (ix3 B n o) k) * x2 (ridx_main_v42 (ix3 B n o) k)
        = Cert.WinAttn.headOut (fun n c => x0 (ix3 B n c)) (fun r c => x1 (ix2 r c))
          (fun h n m => val_main_v19 (F := Ideal) x4 x6 (ix3 h n m))
          (fun n m => x5 (ix3 (⟨B.val % 1024, Nat.mod_lt _ (by decide)⟩ : Fin 1024) n m)) (Cert.WinAttn.headOf k) n (Cert.WinAttn.chanOf k) * x2 (ix2 o k) := fun k => by
    have el : lidx_main_v42 (ix3 B n o) k = ix3 B n k := funext fun a => by
      match a with
      | ⟨0, _⟩ => rfl
      | ⟨1, _⟩ => rfl
      | ⟨2, _⟩ => rfl
    have er : ridx_main_v42 (ix3 B n o) k = ix2 o k := funext fun a => by
      match a with
      | ⟨0, _⟩ => rfl
      | ⟨1, _⟩ => rfl
    rw [el, er, v41_at]
  rw [Finset.sum_congr rfl fun k _ => e k]
  rfl

end Cert.RefValue

end
-- ==== Proof.KernelHeads.lean ====
/-
  The kernel body's payloads read at an index, at the ideal values. Per block of 64 windows the body projects the
  tokens on the three 128-row parts of the stacked weights (queries, scaled; keys; values), and per head (a slice of
  32 channels of each part) forms the logits, takes a softmax along each row and sums the values with those weights;
  the four heads' outputs, side by side, are projected once more and shifted. Each head is the same chain of
  operations, stated here once (`attnCore`) and read at an index against the specification (`Cert.WinAttn`).
-/
import proofs.«155753_j884763263594_1_alg».proof.Proof.Gen.KernelIdeal.Skeleton
import proofs.«155753_j884763263594_1_alg».proof.Proof.Spec
import Idealize.ShloMosaic.Lib.Pipeline.Value
import Idealize.ShloMosaic.Lib.ValueIdx
import Idealize.ShloMosaic.PureOps.Ideal.Laws

noncomputable section

namespace Cert.KernelValue

open Idealize.ShloMosaic Idealize.ShloMosaic.ValueIdx Cert.KernelIdeal Cert.KernelIdeal.Gen

/-! ## The three products read at an index

A product into the zero accumulator is the sum over the contracted coordinate of the operands' products; the
operand indices are the output index's batch and free coordinates with the contracted one inserted. -/

theorem dProj_lhs_0 (i : S3136x128.Idx) (q : dot_S3136x128_S128x128_S3136x128_1_1_0_0_n_n.contr.Idx) :
    (dot_S3136x128_S128x128_S3136x128_1_1_0_0_n_n.lhsIdx i q 0).val = (i 0).val := by
  unfold DotDims.lhsIdx
  rw [dif_neg (show ¬(0 : Fin S3136x128.rank) ∈ dot_S3136x128_S128x128_S3136x128_1_1_0_0_n_n.lhsBatch by decide), dif_pos (show (0 : Fin S3136x128.rank) ∈ dot_S3136x128_S128x128_S3136x128_1_1_0_0_n_n.lhsNonContracting by decide)]
  rfl
theorem dProj_lhs_1 (i : S3136x128.Idx) (q : dot_S3136x128_S128x128_S3136x128_1_1_0_0_n_n.contr.Idx) :
    (dot_S3136x128_S128x128_S3136x128_1_1_0_0_n_n.lhsIdx i q 1).val = (q ⟨0, by decide⟩).val :=
  dot_S3136x128_S128x128_S3136x128_1_1_0_0_n_n.lhsIdx_val_of_single rfl i q
theorem dProj_rhs_0 (i : S3136x128.Idx) (q : dot_S3136x128_S128x128_S3136x128_1_1_0_0_n_n.contr.Idx) :
    (dot_S3136x128_S128x128_S3136x128_1_1_0_0_n_n.rhsIdx i q 0).val = (i 1).val := by
  unfold DotDims.rhsIdx
  rw [dif_neg (show ¬(0 : Fin S128x128.rank) ∈ dot_S3136x128_S128x128_S3136x128_1_1_0_0_n_n.rhsBatch by decide), dif_pos (show (0 : Fin S128x128.rank) ∈ dot_S3136x128_S128x128_S3136x128_1_1_0_0_n_n.rhsNonContracting by decide)]
  rfl
theorem dProj_rhs_1 (i : S3136x128.Idx) (q : dot_S3136x128_S128x128_S3136x128_1_1_0_0_n_n.contr.Idx) :
    (dot_S3136x128_S128x128_S3136x128_1_1_0_0_n_n.rhsIdx i q 1).val = (q ⟨0, by decide⟩).val :=
  dot_S3136x128_S128x128_S3136x128_1_1_0_0_n_n.rhsIdx_val_of_single rfl i q
theorem dQK_lhs_0 (i : S64x49x49.Idx) (q : dot_S64x49x32_S64x49x32_S64x49x49_2_2_1_1_0_0.contr.Idx) :
    (dot_S64x49x32_S64x49x32_S64x49x49_2_2_1_1_0_0.lhsIdx i q 0).val = (i 0).val := by
  unfold DotDims.lhsIdx
  rw [dif_pos (show (0 : Fin S64x49x32.rank) ∈ dot_S64x49x32_S64x49x32_S64x49x49_2_2_1_1_0_0.lhsBatch by decide)]
  rfl
theorem dQK_lhs_1 (i : S64x49x49.Idx) (q : dot_S64x49x32_S64x49x32_S64x49x49_2_2_1_1_0_0.contr.Idx) :
    (dot_S64x49x32_S64x49x32_S64x49x49_2_2_1_1_0_0.lhsIdx i q 1).val = (i 1).val := by
  unfold DotDims.lhsIdx
  rw [dif_neg (show ¬(1 : Fin S64x49x32.rank) ∈ dot_S64x49x32_S64x49x32_S64x49x49_2_2_1_1_0_0.lhsBatch by decide), dif_pos (show (1 : Fin S64x49x32.rank) ∈ dot_S64x49x32_S64x49x32_S64x49x49_2_2_1_1_0_0.lhsNonContracting by decide)]
  rfl
theorem dQK_lhs_2 (i : S64x49x49.Idx) (q : dot_S64x49x32_S64x49x32_S64x49x49_2_2_1_1_0_0.contr.Idx) :
    (dot_S64x49x32_S64x49x32_S64x49x49_2_2_1_1_0_0.lhsIdx i q 2).val = (q ⟨0, by decide⟩).val :=
  dot_S64x49x32_S64x49x32_S64x49x49_2_2_1_1_0_0.lhsIdx_val_of_single rfl i q
theorem dQK_rhs_0 (i : S64x49x49.Idx) (q : dot_S64x49x32_S64x49x32_S64x49x49_2_2_1_1_0_0.contr.Idx) :
    (dot_S64x49x32_S64x49x32_S64x49x49_2_2_1_1_0_0.rhsIdx i q 0).val = (i 0).val := by
  unfold DotDims.rhsIdx
  rw [dif_pos (show (0 : Fin S64x49x32.rank) ∈ dot_S64x49x32_S64x49x32_S64x49x49_2_2_1_1_0_0.rhsBatch by decide)]
  rfl
theorem dQK_rhs_1 (i : S64x49x49.Idx) (q : dot_S64x49x32_S64x49x32_S64x49x49_2_2_1_1_0_0.contr.Idx) :
    (dot_S64x49x32_S64x49x32_S64x49x49_2_2_1_1_0_0.rhsIdx i q 1).val = (i 2).val := by
  unfold DotDims.rhsIdx
  rw [dif_neg (show ¬(1 : Fin S64x49x32.rank) ∈ dot_S64x49x32_S64x49x32_S64x49x49_2_2_1_1_0_0.rhsBatch by decide), dif_pos (show (1 : Fin S64x49x32.rank) ∈ dot_S64x49x32_S64x49x32_S64x49x49_2_2_1_1_0_0.rhsNonContracting by decide)]
  rfl
theorem dQK_rhs_2 (i : S64x49x49.Idx) (q : dot_S64x49x32_S64x49x32_S64x49x49_2_2_1_1_0_0.contr.Idx) :
    (dot_S64x49x32_S64x49x32_S64x49x49_2_2_1_1_0_0.rhsIdx i q 2).val = (q ⟨0, by decide⟩).val :=
  dot_S64x49x32_S64x49x32_S64x49x49_2_2_1_1_0_0.rhsIdx_val_of_single rfl i q
theorem dPV_lhs_0 (i : S64x49x32.Idx) (q : dot_S64x49x49_S64x49x32_S64x49x32_2_1_1_2_0_0.contr.Idx) :
    (dot_S64x49x49_S64x49x32_S64x49x32_2_1_1_2_0_0.lhsIdx i q 0).val = (i 0).val := by
  unfold DotDims.lhsIdx
  rw [dif_pos (show (0 : Fin S64x49x49.rank) ∈ dot_S64x49x49_S64x49x32_S64x49x32_2_1_1_2_0_0.lhsBatch by decide)]
  rfl
theorem dPV_lhs_1 (i : S64x49x32.Idx) (q : dot_S64x49x49_S64x49x32_S64x49x32_2_1_1_2_0_0.contr.Idx) :
    (dot_S64x49x49_S64x49x32_S64x49x32_2_1_1_2_0_0.lhsIdx i q 1).val = (i 1).val := by
  unfold DotDims.lhsIdx
  rw [dif_neg (show ¬(1 : Fin S64x49x49.rank) ∈ dot_S64x49x49_S64x49x32_S64x49x32_2_1_1_2_0_0.lhsBatch by decide), dif_pos (show (1 : Fin S64x49x49.rank) ∈ dot_S64x49x49_S64x49x32_S64x49x32_2_1_1_2_0_0.lhsNonContracting by decide)]
  rfl
theorem dPV_lhs_2 (i : S64x49x32.Idx) (q : dot_S64x49x49_S64x49x32_S64x49x32_2_1_1_2_0_0.contr.Idx) :
    (dot_S64x49x49_S64x49x32_S64x49x32_2_1_1_2_0_0.lhsIdx i q 2).val = (q ⟨0, by decide⟩).val :=
  dot_S64x49x49_S64x49x32_S64x49x32_2_1_1_2_0_0.lhsIdx_val_of_single rfl i q
theorem dPV_rhs_0 (i : S64x49x32.Idx) (q : dot_S64x49x49_S64x49x32_S64x49x32_2_1_1_2_0_0.contr.Idx) :
    (dot_S64x49x49_S64x49x32_S64x49x32_2_1_1_2_0_0.rhsIdx i q 0).val = (i 0).val := by
  unfold DotDims.rhsIdx
  rw [dif_pos (show (0 : Fin S64x49x32.rank) ∈ dot_S64x49x49_S64x49x32_S64x49x32_2_1_1_2_0_0.rhsBatch by decide)]
  rfl
theorem dPV_rhs_1 (i : S64x49x32.Idx) (q : dot_S64x49x49_S64x49x32_S64x49x32_2_1_1_2_0_0.contr.Idx) :
    (dot_S64x49x49_S64x49x32_S64x49x32_2_1_1_2_0_0.rhsIdx i q 1).val = (q ⟨0, by decide⟩).val :=
  dot_S64x49x49_S64x49x32_S64x49x32_2_1_1_2_0_0.rhsIdx_val_of_single rfl i q
theorem dPV_rhs_2 (i : S64x49x32.Idx) (q : dot_S64x49x49_S64x49x32_S64x49x32_2_1_1_2_0_0.contr.Idx) :
    (dot_S64x49x49_S64x49x32_S64x49x32_2_1_1_2_0_0.rhsIdx i q 2).val = (i 2).val := by
  unfold DotDims.rhsIdx
  rw [dif_neg (show ¬(2 : Fin S64x49x32.rank) ∈ dot_S64x49x49_S64x49x32_S64x49x32_2_1_1_2_0_0.rhsBatch by decide), dif_pos (show (2 : Fin S64x49x32.rank) ∈ dot_S64x49x49_S64x49x32_S64x49x32_2_1_1_2_0_0.rhsNonContracting by decide)]
  rfl

theorem mmProj_at {φ₁ φ₂ : FTy} (lhs : FVec Ideal S3136x128 φ₁) (rhs : FVec Ideal S128x128 φ₂) (r : Fin 3136) (c : Fin 128) :
    matmul dot_S3136x128_S128x128_S3136x128_1_1_0_0_n_n none lhs rhs (constant S3136x128 .f32 0x00000000#32) (ix2 r c)
      = ∑ k : Fin 128, lhs (ix2 r k) * rhs (ix2 c k) := by
  refine (Ideal.matmul_constant_zero_apply dot_S3136x128_S128x128_S3136x128_1_1_0_0_n_n none lhs rhs (ix2 r c)).trans ?_
  rw [← Equiv.sum_comp (contrEquiv1 dot_S3136x128_S128x128_S3136x128_1_1_0_0_n_n 128 rfl rfl).symm]
  refine Finset.sum_congr rfl fun k _ => ?_
  have hk := contrEquiv1_symm_val dot_S3136x128_S128x128_S3136x128_1_1_0_0_n_n 128 rfl rfl k
  have el : dot_S3136x128_S128x128_S3136x128_1_1_0_0_n_n.lhsIdx (ix2 r c) ((contrEquiv1 dot_S3136x128_S128x128_S3136x128_1_1_0_0_n_n 128 rfl rfl).symm k) = ix2 r k :=
    funext fun a => Fin.ext (by
      match a with
      | ⟨0, _⟩ => exact dProj_lhs_0 _ _
      | ⟨1, _⟩ => exact (dProj_lhs_1 _ _).trans hk)
  have er : dot_S3136x128_S128x128_S3136x128_1_1_0_0_n_n.rhsIdx (ix2 r c) ((contrEquiv1 dot_S3136x128_S128x128_S3136x128_1_1_0_0_n_n 128 rfl rfl).symm k) = ix2 c k :=
    funext fun a => Fin.ext (by
      match a with
      | ⟨0, _⟩ => exact dProj_rhs_0 _ _
      | ⟨1, _⟩ => exact (dProj_rhs_1 _ _).trans hk)
  rw [el, er]

theorem mmQK_at {φ₁ φ₂ : FTy} (lhs : FVec Ideal S64x49x32 φ₁) (rhs : FVec Ideal S64x49x32 φ₂) (b : Fin 64) (n m : Fin 49) :
    matmul dot_S64x49x32_S64x49x32_S64x49x49_2_2_1_1_0_0 none lhs rhs (constant S64x49x49 .f32 0x00000000#32) (ix3 b n m)
      = ∑ k : Fin 32, lhs (ix3 b n k) * rhs (ix3 b m k) := by
  refine (Ideal.matmul_constant_zero_apply dot_S64x49x32_S64x49x32_S64x49x49_2_2_1_1_0_0 none lhs rhs (ix3 b n m)).trans ?_
  rw [← Equiv.sum_comp (contrEquiv1 dot_S64x49x32_S64x49x32_S64x49x49_2_2_1_1_0_0 32 rfl rfl).symm]
  refine Finset.sum_congr rfl fun k _ => ?_
  have hk := contrEquiv1_symm_val dot_S64x49x32_S64x49x32_S64x49x49_2_2_1_1_0_0 32 rfl rfl k
  have el : dot_S64x49x32_S64x49x32_S64x49x49_2_2_1_1_0_0.lhsIdx (ix3 b n m) ((contrEquiv1 dot_S64x49x32_S64x49x32_S64x49x49_2_2_1_1_0_0 32 rfl rfl).symm k) = ix3 b n k :=
    funext fun a => Fin.ext (by
      match a with
      | ⟨0, _⟩ => exact dQK_lhs_0 _ _
      | ⟨1, _⟩ => exact dQK_lhs_1 _ _
      | ⟨2, _⟩ => exact (dQK_lhs_2 _ _).trans hk)
  have er : dot_S64x49x32_S64x49x32_S64x49x49_2_2_1_1_0_0.rhsIdx (ix3 b n m) ((contrEquiv1 dot_S64x49x32_S64x49x32_S64x49x49_2_2_1_1_0_0 32 rfl rfl).symm k) = ix3 b m k :=
    funext fun a => Fin.ext (by
      match a with
      | ⟨0, _⟩ => exact dQK_rhs_0 _ _
      | ⟨1, _⟩ => exact dQK_rhs_1 _ _
      | ⟨2, _⟩ => exact (dQK_rhs_2 _ _).trans hk)
  rw [el, er]

theorem mmPV_at {φ₁ φ₂ : FTy} (lhs : FVec Ideal S64x49x49 φ₁) (rhs : FVec Ideal S64x49x32 φ₂) (b : Fin 64) (n : Fin 49) (d : Fin 32) :
    matmul dot_S64x49x49_S64x49x32_S64x49x32_2_1_1_2_0_0 none lhs rhs (constant S64x49x32 .f32 0x00000000#32) (ix3 b n d)
      = ∑ k : Fin 49, lhs (ix3 b n k) * rhs (ix3 b k d) := by
  refine (Ideal.matmul_constant_zero_apply dot_S64x49x49_S64x49x32_S64x49x32_2_1_1_2_0_0 none lhs rhs (ix3 b n d)).trans ?_
  rw [← Equiv.sum_comp (contrEquiv1 dot_S64x49x49_S64x49x32_S64x49x32_2_1_1_2_0_0 49 rfl rfl).symm]
  refine Finset.sum_congr rfl fun k _ => ?_
  have hk := contrEquiv1_symm_val dot_S64x49x49_S64x49x32_S64x49x32_2_1_1_2_0_0 49 rfl rfl k
  have el : dot_S64x49x49_S64x49x32_S64x49x32_2_1_1_2_0_0.lhsIdx (ix3 b n d) ((contrEquiv1 dot_S64x49x49_S64x49x32_S64x49x32_2_1_1_2_0_0 49 rfl rfl).symm k) = ix3 b n k :=
    funext fun a => Fin.ext (by
      match a with
      | ⟨0, _⟩ => exact dPV_lhs_0 _ _
      | ⟨1, _⟩ => exact dPV_lhs_1 _ _
      | ⟨2, _⟩ => exact (dPV_lhs_2 _ _).trans hk)
  have er : dot_S64x49x49_S64x49x32_S64x49x32_2_1_1_2_0_0.rhsIdx (ix3 b n d) ((contrEquiv1 dot_S64x49x49_S64x49x32_S64x49x32_2_1_1_2_0_0 49 rfl rfl).symm k) = ix3 b k d :=
    funext fun a => Fin.ext (by
      match a with
      | ⟨0, _⟩ => exact dPV_rhs_0 _ _
      | ⟨1, _⟩ => exact (dPV_rhs_1 _ _).trans hk
      | ⟨2, _⟩ => exact dPV_rhs_2 _ _)
  rw [el, er]

/-! ## One head, as the kernel computes it

The logits of a head are the products of its scaled queries and its keys, plus the head's bias read over every
window, plus the mask; a row of logits less its maximum is exponentiated; the exponentials, divided by their
row sums, weigh the head's values. -/

/-- The logits: queries times keys over the 32 channels, plus the bias block on every window, plus the mask. -/
def lgt (qh kh : FVec Ideal S64x49x32 .bf16) (bh : FVec Ideal S1x49x49 .f32) (mk : Vec Ideal S64x49x49 .f32) :
    FVec Ideal S64x49x49 .f32 :=
  addf (addf (matmul dot_S64x49x32_S64x49x32_S64x49x49_2_2_1_1_0_0 none qh kh (constant S64x49x49 .f32 0x00000000#32))
    (broadcastTo S64x49x49 (shapeCast S1x49x49 (shapeCast S49x49 bh shapeCasts_S1x49x49_S49x49) shapeCasts_S49x49_S1x49x49)
      broadcasts_S1x49x49_S64x49x49)) mk

/-- The exponentials of the logits less their row maxima. -/
def sexp (l : FVec Ideal S64x49x49 .f32) : FVec Ideal S64x49x49 .f32 :=
  exp (subf l (broadcastTo S64x49x49 (shapeCast S64x49x1
    (maximumf (broadcast S64x49 (Scalar.ofBits .f32 0xFF800000#32 : Ideal .f32))
      (multiReduction .maximumf [2] S64x49 l 0xFF800000#32 reduces_S64x49x49_S64x49 (.inl rfl) rfl))
    shapeCasts_S64x49_S64x49x1) broadcasts_S64x49x1_S64x49x49))

/-- The row sums of the exponentials. -/
def rsum (e : FVec Ideal S64x49x49 .f32) : FVec Ideal S64x49 .f32 :=
  multiReduction .add [2] S64x49 e 0x00000000#32 reduces_S64x49x49_S64x49 (.inl rfl) rfl

/-- The exponentials over their row sums, times the values over the 49 tokens. -/
def wout (vh : FVec Ideal S64x49x32 .bf16) (e : FVec Ideal S64x49x49 .f32) (sm : FVec Ideal S64x49 .f32) :
    FVec Ideal S64x49x32 .f32 :=
  shapeCast S64x49x32 (matmul dot_S64x49x49_S64x49x32_S64x49x32_2_1_1_2_0_0 none
    (truncf .bf16 (divf e (broadcastTo S64x49x49 (shapeCast S64x49x1 sm shapeCasts_S64x49_S64x49x1)
      broadcasts_S64x49x1_S64x49x49)) bitsLt_bf16_f32) vh (constant S64x49x32 .f32 0x00000000#32))
    shapeCasts_S64x49x32_S64x49x32

/-- One head, whole. -/
def attnCore (qh kh vh : FVec Ideal S64x49x32 .bf16) (bh : FVec Ideal S1x49x49 .f32) (mk : Vec Ideal S64x49x49 .f32) :
    FVec Ideal S64x49x32 .f32 :=
  wout vh (sexp (lgt qh kh bh mk)) (rsum (sexp (lgt qh kh bh mk)))

/-! ### The payloads are this chain -/

theorem pay9_eq (v0 : Vec Ideal S64x49x128 .f32) (v3 : Vec Ideal S384x128 .f32) (v19 : Vec Ideal S64x49x49 .f32) (v20 : Vec Ideal S4x49x49 .f32) :
    k0_pay9 (F := Ideal) v0 v3 v19 v20 = sexp (lgt
      (extractStridedSlice S64x49x32 ![0, 0, 0] (k0_pay4 v0 v3) slices_S64x49x128_o0_0_0_S64x49x32)
      (extractStridedSlice S64x49x32 ![0, 0, 0] (k0_pay5 v0 v3) slices_S64x49x128_o0_0_0_S64x49x32)
      (extractStridedSlice S1x49x49 ![0, 0, 0] (k0_pay7 v20) slices_S4x49x49_o0_0_0_S1x49x49) v19) := rfl

theorem pay10_eq (v0 : Vec Ideal S64x49x128 .f32) (v3 : Vec Ideal S384x128 .f32) (v19 : Vec Ideal S64x49x49 .f32) (v20 : Vec Ideal S4x49x49 .f32) :
    k0_pay10 (F := Ideal) v0 v3 v19 v20 = rsum (k0_pay9 v0 v3 v19 v20) := rfl

theorem pay11_eq (v24 : FVec Ideal S64x49x32 .bf16) (v38 : FVec Ideal S64x49x49 .f32) (v39 : FVec Ideal S64x49 .f32) :
    k0_pay11 (F := Ideal) v24 v38 v39 = wout v24 v38 v39 := rfl

theorem pay12_eq (v12 v15 v18 : FVec Ideal S64x49x128 .bf16) (v19 : Vec Ideal S64x49x49 .f32) (v21 : FVec Ideal S4x49x49 .f32) :
    k0_pay12 (F := Ideal) v12 v15 v18 v19 v21 = attnCore
      (extractStridedSlice S64x49x32 ![0, 0, 32] v12 slices_S64x49x128_o0_0_32_S64x49x32)
      (extractStridedSlice S64x49x32 ![0, 0, 32] v15 slices_S64x49x128_o0_0_32_S64x49x32)
      (extractStridedSlice S64x49x32 ![0, 0, 32] v18 slices_S64x49x128_o0_0_32_S64x49x32)
      (extractStridedSlice S1x49x49 ![1, 0, 0] v21 slices_S4x49x49_o1_0_0_S1x49x49) v19 := rfl

theorem pay14_eq (v12 v15 : FVec Ideal S64x49x128 .bf16) (v19 : Vec Ideal S64x49x49 .f32) (v21 : FVec Ideal S4x49x49 .f32) :
    k0_pay14 (F := Ideal) v12 v15 v19 v21 = lgt
      (extractStridedSlice S64x49x32 ![0, 0, 64] v12 slices_S64x49x128_o0_0_64_S64x49x32)
      (extractStridedSlice S64x49x32 ![0, 0, 64] v15 slices_S64x49x128_o0_0_64_S64x49x32)
      (extractStridedSlice S1x49x49 ![2, 0, 0] v21 slices_S4x49x49_o2_0_0_S1x49x49) v19 := rfl

theorem pay15_eq (v76 : FVec Ideal S64x49x32 .bf16) (v83 : FVec Ideal S64x49x49 .f32) :
    k0_pay15 (F := Ideal) v76 v83 = wout v76 (sexp v83) (rsum (sexp v83)) := rfl

theorem pay16_eq (v12 v15 v18 : FVec Ideal S64x49x128 .bf16) (v19 : Vec Ideal S64x49x49 .f32) (v21 : FVec Ideal S4x49x49 .f32) :
    k0_pay16 (F := Ideal) v12 v15 v18 v19 v21 = attnCore
      (extractStridedSlice S64x49x32 ![0, 0, 96] v12 slices_S64x49x128_o0_0_96_S64x49x32)
      (extractStridedSlice S64x49x32 ![0, 0, 96] v15 slices_S64x49x128_o0_0_96_S64x49x32)
      (extractStridedSlice S64x49x32 ![0, 0, 96] v18 slices_S64x49x128_o0_0_96_S64x49x32)
      (extractStridedSlice S1x49x49 ![3, 0, 0] v21 slices_S4x49x49_o3_0_0_S1x49x49) v19 := rfl

/-! ## Layout operations and reductions of the body read at an index -/

theorem exp_apply {s : Shape} {φ : FTy} (a : FVec Ideal s φ) (i : s.Idx) : exp a i = Ideal.exp (a i) := rfl

/-- A value per row, spread along the row. -/
theorem colBcast_at (V : FVec Ideal S64x49 .f32) (b : Fin 64) (n m : Fin 49) :
    broadcastTo S64x49x49 (shapeCast S64x49x1 V shapeCasts_S64x49_S64x49x1) broadcasts_S64x49x1_S64x49x49 (ix3 b n m)
      = V (ix2 b n) := by
  refine (broadcastTo_apply _ broadcasts_S64x49x1_S64x49x49 (ix3 b n m) (ix3 b n (0 : Fin 1)) (fun a => ?_)).trans ?_
  · match a with
    | ⟨0, _⟩ => show b.val = if (64 : Nat) = 1 then 0 else b.val; rw [if_neg (by decide)]
    | ⟨1, _⟩ => show n.val = if (49 : Nat) = 1 then 0 else n.val; rw [if_neg (by decide)]
    | ⟨2, _⟩ => show 0 = if (1 : Nat) = 1 then 0 else m.val; rw [if_pos rfl]
  · exact shapeCast_apply V shapeCasts_S64x49_S64x49x1 (ix3 b n (0 : Fin 1)) (ix2 b n) (by
      rewrite [Shape.rowMajor_val_two, Shape.rowMajor_val_three]
      show b.val * 49 + n.val = (b.val * 49 + n.val) * 1 + 0
      omega)

/-- The head's bias block, read on every window. -/
theorem biasBcast_at (bh : FVec Ideal S1x49x49 .f32) (b : Fin 64) (n m : Fin 49) :
    broadcastTo S64x49x49 (shapeCast S1x49x49 (shapeCast S49x49 bh shapeCasts_S1x49x49_S49x49) shapeCasts_S49x49_S1x49x49)
      broadcasts_S1x49x49_S64x49x49 (ix3 b n m) = bh (ix3 (0 : Fin 1) n m) := by
  rw [shapeCast_shapeCast]
  exact broadcastTo_apply bh broadcasts_S1x49x49_S64x49x49 (ix3 b n m) (ix3 (0 : Fin 1) n m) (fun a => match a with
    | ⟨0, _⟩ => by show 0 = if (1 : Nat) = 1 then 0 else b.val; rw [if_pos rfl]
    | ⟨1, _⟩ => by show n.val = if (49 : Nat) = 1 then 0 else n.val; rw [if_neg (by decide)]
    | ⟨2, _⟩ => by show m.val = if (49 : Nat) = 1 then 0 else m.val; rw [if_neg (by decide)])

/-- A row's maximum: the fold of `max` over the row, from the accumulator's value. -/
theorem rowMax_at (l : FVec Ideal S64x49x49 .f32) (hφ : FKind.Formats .f32)
    (hacc : (0xFF800000#32 : BitVec 32) = FKind.maximumf.neutral .f32 hφ) (b : Fin 64) (n : Fin 49) :
    multiReduction .maximumf [2] S64x49 l 0xFF800000#32 reduces_S64x49x49_S64x49 hφ hacc (ix2 b n)
      = (Finset.univ : Finset (Fin 49)).fold max (Ideal.ofBits .f32 0xFF800000#32) (fun m => l (ix3 b n m)) := by
  refine (Ideal.multiReduction_maximumf_single l _ reduces_S64x49x49_S64x49 hφ hacc (ix2 b n)).trans ?_
  refine congrArg (fun f : Fin 49 → EReal => (Finset.univ : Finset (Fin 49)).fold max (Ideal.ofBits .f32 0xFF800000#32) f)
    (funext fun m => ?_)
  exact congrArg l (funext fun a => Fin.ext (by match a with | ⟨0, _⟩ => rfl | ⟨1, _⟩ => rfl | ⟨2, _⟩ => rfl))

/-- A row's sum. -/
theorem rowSum_at (e : FVec Ideal S64x49x49 .f32) (hφ : FKind.Formats .f32)
    (hacc : (0x00000000#32 : BitVec 32) = FKind.add.neutral .f32 hφ) (b : Fin 64) (n : Fin 49) :
    multiReduction .add [2] S64x49 e 0x00000000#32 reduces_S64x49x49_S64x49 hφ hacc (ix2 b n)
      = ∑ m : Fin 49, e (ix3 b n m) := by
  refine (Ideal.multiReduction_add_single e _ reduces_S64x49x49_S64x49 hφ hacc (ix2 b n)).trans ?_
  refine Finset.sum_congr rfl fun m _ => ?_
  exact congrArg e (funext fun a => Fin.ext (by match a with | ⟨0, _⟩ => rfl | ⟨1, _⟩ => rfl | ⟨2, _⟩ => rfl))

/-! ## One head read at an index -/

theorem lgt_at (qh kh : FVec Ideal S64x49x32 .bf16) (bh : FVec Ideal S1x49x49 .f32) (mk : Vec Ideal S64x49x49 .f32)
    (b : Fin 64) (n m : Fin 49) :
    lgt qh kh bh mk (ix3 b n m)
      = ((∑ d : Fin 32, qh (ix3 b n d) * kh (ix3 b m d)) + bh (ix3 (0 : Fin 1) n m)) + mk (ix3 b n m) := by
  unfold lgt
  rw [addf_apply, addf_apply, mmQK_at, biasBcast_at]

theorem sexp_at (l : FVec Ideal S64x49x49 .f32) (b : Fin 64) (n m : Fin 49) :
    sexp l (ix3 b n m) = Ideal.exp (l (ix3 b n m) - max (Ideal.ofBits .f32 0xFF800000#32)
      ((Finset.univ : Finset (Fin 49)).fold max (Ideal.ofBits .f32 0xFF800000#32) (fun m' => l (ix3 b n m')))) := by
  unfold sexp
  rw [exp_apply, subf_apply, colBcast_at, maximumf_apply, broadcast_apply]
  exact congrArg (fun t => Ideal.exp (l (ix3 b n m) - max (Ideal.ofBits .f32 0xFF800000#32) t)) (rowMax_at l _ _ b n)

theorem rsum_at (e : FVec Ideal S64x49x49 .f32) (b : Fin 64) (n : Fin 49) :
    rsum e (ix2 b n) = ∑ m : Fin 49, e (ix3 b n m) :=
  rowSum_at e _ _ b n

theorem wout_at (vh : FVec Ideal S64x49x32 .bf16) (e : FVec Ideal S64x49x49 .f32) (sm : FVec Ideal S64x49 .f32)
    (b : Fin 64) (n : Fin 49) (d : Fin 32) :
    wout vh e sm (ix3 b n d) = ∑ m : Fin 49, Ideal.div (e (ix3 b n m)) (sm (ix2 b n)) * vh (ix3 b m d) := by
  unfold wout
  rw [shapeCast_self, mmPV_at]
  refine Finset.sum_congr rfl fun m _ => ?_
  rw [truncf_apply, divf_apply, colBcast_at]

/-! ## The projections read at an index

Row `b·49 + n` of the block viewed as 3136 rows is token `n` of window `b`. -/

/-- The block viewed as 3136 rows. -/
theorem castRows_at {φ : FTy} (x : FVec Ideal S64x49x128 φ) (b : Fin 64) (n : Fin 49) (k : Fin 128)
    (hr : b.val * 49 + n.val < 3136) :
    shapeCast S3136x128 x shapeCasts_S64x49x128_S3136x128 (ix2 (⟨b.val * 49 + n.val, hr⟩ : Fin 3136) k) = x (ix3 b n k) :=
  shapeCast_apply x shapeCasts_S64x49x128_S3136x128 (ix2 (⟨b.val * 49 + n.val, hr⟩ : Fin 3136) k) (ix3 b n k) (by
    rewrite [Shape.rowMajor_val_three, Shape.rowMajor_val_two]
    show (b.val * 49 + n.val) * 128 + k.val = (b.val * 49 + n.val) * 128 + k.val
    rfl)

/-- 3136 rows viewed as the block. -/
theorem castBlock_at {φ : FTy} (x : FVec Ideal S3136x128 φ) (b : Fin 64) (n : Fin 49) (c : Fin 128)
    (hr : b.val * 49 + n.val < 3136) :
    shapeCast S64x49x128 x shapeCasts_S3136x128_S64x49x128 (ix3 b n c) = x (ix2 (⟨b.val * 49 + n.val, hr⟩ : Fin 3136) c) :=
  shapeCast_apply x shapeCasts_S3136x128_S64x49x128 (ix3 b n c) (ix2 (⟨b.val * 49 + n.val, hr⟩ : Fin 3136) c) (by
    rewrite [Shape.rowMajor_val_three, Shape.rowMajor_val_two]
    show (b.val * 49 + n.val) * 128 + c.val = (b.val * 49 + n.val) * 128 + c.val
    rfl)

theorem row_lt (b : Fin 64) (n : Fin 49) : b.val * 49 + n.val < 3136 := by
  have := b.isLt; have := n.isLt; omega

/-- The tokens against 128 rows of the stacked weights starting at row `o`. -/
theorem projRow_at (o : Nat) (ho : o + 128 ≤ 384) (hs : S384x128.Slices ![o, 0] S128x128)
    (v0 : Vec Ideal S64x49x128 .f32) (v3 : Vec Ideal S384x128 .f32) (b : Fin 64) (n : Fin 49) (c : Fin 128) :
    matmul dot_S3136x128_S128x128_S3136x128_1_1_0_0_n_n none (k0_pay2 (F := Ideal) v0)
        (extractStridedSlice S128x128 ![o, 0] (k0_pay3 (F := Ideal) v3) hs) (constant S3136x128 .f32 0x00000000#32)
        (ix2 (⟨b.val * 49 + n.val, row_lt b n⟩ : Fin 3136) c)
      = ∑ k : Fin 128, v0 (ix3 b n k) * v3 (ix2 (⟨o + c.val, by have := c.isLt; omega⟩ : Fin 384) k) := by
  rw [mmProj_at]
  refine Finset.sum_congr rfl fun k _ => ?_
  refine congrArg₂ (· * ·) ?_ ?_
  · exact castRows_at (truncf .bf16 v0 bitsLt_bf16_f32) b n k (row_lt b n)
  · exact extractStridedSlice_apply ![o, 0] (k0_pay3 (F := Ideal) v3) hs (ix2 c k)
      (ix2 (⟨o + c.val, by have := c.isLt; omega⟩ : Fin 384) k) (fun a => match a with
      | ⟨0, _⟩ => by show o + c.val = o + c.val; rfl
      | ⟨1, _⟩ => by show k.val = 0 + k.val; omega)

/-- The scaled queries. -/
theorem pay4_at (v0 : Vec Ideal S64x49x128 .f32) (v3 : Vec Ideal S384x128 .f32) (b : Fin 64) (n : Fin 49) (c : Fin 128) :
    k0_pay4 (F := Ideal) v0 v3 (ix3 b n c)
      = (∑ k : Fin 128, v0 (ix3 b n k) * v3 (ix2 (⟨0 + c.val, by have := c.isLt; omega⟩ : Fin 384) k))
          * Ideal.ofBits .f32 0x3E3504F3#32 := by
  unfold k0_pay4
  refine (castBlock_at _ b n c (row_lt b n)).trans ?_
  rw [truncf_apply, mulf_apply, broadcast_apply, projRow_at 0 (by omega)]
  rfl

/-- The keys. -/
theorem pay5_at (v0 : Vec Ideal S64x49x128 .f32) (v3 : Vec Ideal S384x128 .f32) (b : Fin 64) (n : Fin 49) (c : Fin 128) :
    k0_pay5 (F := Ideal) v0 v3 (ix3 b n c)
      = ∑ k : Fin 128, v0 (ix3 b n k) * v3 (ix2 (⟨128 + c.val, by have := c.isLt; omega⟩ : Fin 384) k) := by
  unfold k0_pay5
  refine (castBlock_at _ b n c (row_lt b n)).trans ?_
  rw [truncf_apply, projRow_at 128 (by omega)]

/-- The values. -/
theorem pay6_at (v0 : Vec Ideal S64x49x128 .f32) (v3 : Vec Ideal S384x128 .f32) (b : Fin 64) (n : Fin 49) (c : Fin 128) :
    k0_pay6 (F := Ideal) v0 v3 (ix3 b n c)
      = ∑ k : Fin 128, v0 (ix3 b n k) * v3 (ix2 (⟨256 + c.val, by have := c.isLt; omega⟩ : Fin 384) k) := by
  unfold k0_pay6
  refine (castBlock_at _ b n c (row_lt b n)).trans ?_
  rw [truncf_apply, projRow_at 256 (by omega)]

/-- The output projection: the heads' outputs against the rows of the projection matrix, plus the bias. -/
theorem final_at (acc : Vec Ideal S64x49x128 .f32) (v129 : Vec Ideal S128x128 .f32) (v132 : Vec Ideal S128 .f32)
    (b : Fin 64) (n : Fin 49) (o : Fin 128) :
    k0_pay1 (F := Ideal) acc v129 v132 (ix3 b n o) = (∑ c : Fin 128, acc (ix3 b n c) * v129 (ix2 o c)) + v132 (ix1 o) := by
  unfold k0_pay1
  refine (castBlock_at _ b n o (row_lt b n)).trans ?_
  rw [addf_apply, mmProj_at]
  refine congrArg₂ (· + ·) (Finset.sum_congr rfl fun k _ => ?_) ?_
  · exact congrArg (· * v129 (ix2 o k)) (castRows_at (truncf .bf16 acc bitsLt_bf16_f32) b n k (row_lt b n))
  · refine (broadcastTo_apply _ broadcasts_S1x128_S3136x128 _ (ix2 (0 : Fin 1) o) (fun a => ?_)).trans ?_
    · match a with
      | ⟨0, _⟩ => show 0 = if (1 : Nat) = 1 then 0 else b.val * 49 + n.val; rw [if_pos rfl]
      | ⟨1, _⟩ => show o.val = if (128 : Nat) = 1 then 0 else o.val; rw [if_neg (by decide)]
    · exact shapeCast_apply v132 shapeCasts_S128_S1x128 (ix2 (0 : Fin 1) o) (ix1 o) (by
        rewrite [Shape.rowMajor_val_one, Shape.rowMajor_val_two]
        show o.val = 0 * 128 + o.val
        omega)

/-! ## The heads

A head whose scaled queries, keys, values and bias are the specification's, is the specification's head. -/

open Cert.WinAttn in
theorem attnCore_at (xb : Fin 49 → Fin 128 → EReal) (W : Fin 384 → Fin 128 → EReal)
    (bias : Fin 4 → Fin 49 → Fin 49 → EReal) (mkw : Fin 49 → Fin 49 → EReal) (h : Fin 4)
    (qh kh vh : FVec Ideal S64x49x32 .bf16) (bh : FVec Ideal S1x49x49 .f32) (mk : Vec Ideal S64x49x49 .f32) (b : Fin 64)
    (hq : ∀ n d, qh (ix3 b n d) = proj xb W 0 h n d * scale)
    (hk : ∀ m d, kh (ix3 b m d) = proj xb W 1 h m d)
    (hv : ∀ m d, vh (ix3 b m d) = proj xb W 2 h m d)
    (hb : ∀ n m, bh (ix3 (0 : Fin 1) n m) = bias h n m)
    (hm : ∀ n m, mk (ix3 b n m) = mkw n m) (n : Fin 49) (d : Fin 32) :
    attnCore qh kh vh bh mk (ix3 b n d) = headOut xb W bias mkw h n d := by
  have hl : ∀ n m, lgt qh kh bh mk (ix3 b n m) = logit xb W bias mkw h n m := by
    intro n m
    rw [lgt_at, hb, hm]
    unfold logit
    refine congrArg (· + mkw n m) (congrArg (· + bias h n m) (Finset.sum_congr rfl fun d _ => ?_))
    rw [hq, hk]
  have he : ∀ n m, sexp (lgt qh kh bh mk) (ix3 b n m) = expo xb W bias mkw h n m := by
    intro n m
    rw [sexp_at, hl]
    unfold expo rowMax negInf
    refine congrArg (fun f : Fin 49 → EReal => Ideal.exp (logit xb W bias mkw h n m
      - max (Ideal.ofBits .f32 0xFF800000#32) ((Finset.univ : Finset (Fin 49)).fold max (Ideal.ofBits .f32 0xFF800000#32) f)))
      (funext fun m' => hl n m')
  unfold attnCore
  rw [wout_at]
  unfold headOut weight
  refine Finset.sum_congr rfl fun m _ => ?_
  rw [he, rsum_at, hv]
  refine congrArg (fun s => Ideal.div (expo xb W bias mkw h n m) s * proj xb W 2 h m d) (Finset.sum_congr rfl fun m' _ => he n m')

/-- A 32-channel slice of a 128-channel block. -/
theorem headSlice_at (o : Nat) (ho : o + 32 ≤ 128) (x : FVec Ideal S64x49x128 .bf16)
    (hs : S64x49x128.Slices ![0, 0, o] S64x49x32) (b : Fin 64) (n : Fin 49) (d : Fin 32) :
    extractStridedSlice S64x49x32 ![0, 0, o] x hs (ix3 b n d)
      = x (ix3 b n (⟨o + d.val, by have := d.isLt; omega⟩ : Fin 128)) :=
  extractStridedSlice_apply ![0, 0, o] x hs (ix3 b n d) (ix3 b n (⟨o + d.val, by have := d.isLt; omega⟩ : Fin 128))
    (fun a => match a with
      | ⟨0, _⟩ => by show b.val = 0 + b.val; omega
      | ⟨1, _⟩ => by show n.val = 0 + n.val; omega
      | ⟨2, _⟩ => by show o + d.val = o + d.val; rfl)

/-- One head's block of the bias. -/
theorem biasSlice_at (o : Nat) (ho : o + 1 ≤ 4) (v20 : Vec Ideal S4x49x49 .f32)
    (hs : S4x49x49.Slices ![o, 0, 0] S1x49x49) (n m : Fin 49) :
    extractStridedSlice S1x49x49 ![o, 0, 0] (k0_pay7 (F := Ideal) v20) hs (ix3 (0 : Fin 1) n m)
      = v20 (ix3 (⟨o, by omega⟩ : Fin 4) n m) := by
  unfold k0_pay7
  rw [shapeCast_self]
  exact extractStridedSlice_apply ![o, 0, 0] v20 hs (ix3 (0 : Fin 1) n m) (ix3 (⟨o, by omega⟩ : Fin 4) n m)
    (fun a => match a with
      | ⟨0, _⟩ => by show o = o + 0; omega
      | ⟨1, _⟩ => by show n.val = 0 + n.val; omega
      | ⟨2, _⟩ => by show m.val = 0 + m.val; omega)

section Heads
variable (v0 : Vec Ideal S64x49x128 .f32) (v3 : Vec Ideal S384x128 .f32) (v19 : Vec Ideal S64x49x49 .f32)
  (v20 : Vec Ideal S4x49x49 .f32) (b : Fin 64)

open Cert.WinAttn in
/-- Head `h` (its slices at channel offset `32·h`, its bias block `h`) is the specification's head `h`. -/
theorem head_at (h : Fin 4) (hsq : S64x49x128.Slices ![0, 0, 32 * h.val] S64x49x32)
    (hsb : S4x49x49.Slices ![h.val, 0, 0] S1x49x49) (n : Fin 49) (d : Fin 32) :
    attnCore
      (extractStridedSlice S64x49x32 ![0, 0, 32 * h.val] (k0_pay4 (F := Ideal) v0 v3) hsq)
      (extractStridedSlice S64x49x32 ![0, 0, 32 * h.val] (k0_pay5 (F := Ideal) v0 v3) hsq)
      (extractStridedSlice S64x49x32 ![0, 0, 32 * h.val] (k0_pay6 (F := Ideal) v0 v3) hsq)
      (extractStridedSlice S1x49x49 ![h.val, 0, 0] (k0_pay7 (F := Ideal) v20) hsb) v19 (ix3 b n d)
      = headOut (fun n c => v0 (ix3 b n c)) (fun r c => v3 (ix2 r c)) (fun h n m => v20 (ix3 h n m))
          (fun n m => v19 (ix3 b n m)) h n d := by
  have h4 := h.isLt
  refine attnCore_at _ _ _ _ h _ _ _ _ _ b ?_ ?_ ?_ ?_ (fun _ _ => rfl) n d
  · intro n d
    have hd := d.isLt
    rw [headSlice_at (32 * h.val) (by omega), pay4_at]
    refine congrArg (· * scale) (Finset.sum_congr rfl fun k _ => ?_)
    exact congrArg (fun r : Fin 384 => v0 (ix3 b n k) * v3 (ix2 r k)) (Fin.ext (by
      show 0 + (32 * h.val + d.val) = (0 : Fin 3).val * 128 + h.val * 32 + d.val
      show 0 + (32 * h.val + d.val) = 0 * 128 + h.val * 32 + d.val
      omega))
  · intro m d
    have hd := d.isLt
    rw [headSlice_at (32 * h.val) (by omega), pay5_at]
    refine Finset.sum_congr rfl fun k _ => ?_
    exact congrArg (fun r : Fin 384 => v0 (ix3 b m k) * v3 (ix2 r k)) (Fin.ext (by
      show 128 + (32 * h.val + d.val) = 1 * 128 + h.val * 32 + d.val
      omega))
  · intro m d
    have hd := d.isLt
    rw [headSlice_at (32 * h.val) (by omega), pay6_at]
    refine Finset.sum_congr rfl fun k _ => ?_
    exact congrArg (fun r : Fin 384 => v0 (ix3 b m k) * v3 (ix2 r k)) (Fin.ext (by
      show 256 + (32 * h.val + d.val) = 2 * 128 + h.val * 32 + d.val
      omega))
  · intro n m
    rw [biasSlice_at h.val (by omega)]

theorem head0_at (n : Fin 49) (d : Fin 32) :
    k0_pay11 (F := Ideal) (k0_pay8 v0 v3) (k0_pay9 v0 v3 v19 v20) (k0_pay10 v0 v3 v19 v20) (ix3 b n d)
      = Cert.WinAttn.headOut (fun n c => v0 (ix3 b n c)) (fun r c => v3 (ix2 r c)) (fun h n m => v20 (ix3 h n m))
          (fun n m => v19 (ix3 b n m)) 0 n d :=
  head_at v0 v3 v19 v20 b 0 slices_S64x49x128_o0_0_0_S64x49x32 slices_S4x49x49_o0_0_0_S1x49x49 n d

theorem head1_at (n : Fin 49) (d : Fin 32) :
    k0_pay12 (F := Ideal) (k0_pay4 v0 v3) (k0_pay5 v0 v3) (k0_pay6 v0 v3) v19 (k0_pay7 v20) (ix3 b n d)
      = Cert.WinAttn.headOut (fun n c => v0 (ix3 b n c)) (fun r c => v3 (ix2 r c)) (fun h n m => v20 (ix3 h n m))
          (fun n m => v19 (ix3 b n m)) 1 n d :=
  head_at v0 v3 v19 v20 b 1 slices_S64x49x128_o0_0_32_S64x49x32 slices_S4x49x49_o1_0_0_S1x49x49 n d

theorem head2_at (n : Fin 49) (d : Fin 32) :
    k0_pay15 (F := Ideal) (k0_pay13 (k0_pay6 v0 v3)) (k0_pay14 (k0_pay4 v0 v3) (k0_pay5 v0 v3) v19 (k0_pay7 v20)) (ix3 b n d)
      = Cert.WinAttn.headOut (fun n c => v0 (ix3 b n c)) (fun r c => v3 (ix2 r c)) (fun h n m => v20 (ix3 h n m))
          (fun n m => v19 (ix3 b n m)) 2 n d :=
  head_at v0 v3 v19 v20 b 2 slices_S64x49x128_o0_0_64_S64x49x32 slices_S4x49x49_o2_0_0_S1x49x49 n d

theorem head3_at (n : Fin 49) (d : Fin 32) :
    k0_pay16 (F := Ideal) (k0_pay4 v0 v3) (k0_pay5 v0 v3) (k0_pay6 v0 v3) v19 (k0_pay7 v20) (ix3 b n d)
      = Cert.WinAttn.headOut (fun n c => v0 (ix3 b n c)) (fun r c => v3 (ix2 r c)) (fun h n m => v20 (ix3 h n m))
          (fun n m => v19 (ix3 b n m)) 3 n d :=
  head_at v0 v3 v19 v20 b 3 slices_S64x49x128_o0_0_96_S64x49x32 slices_S4x49x49_o3_0_0_S1x49x49 n d

end Heads

end Cert.KernelValue

end
-- ==== Proof.KernelBlock.lean ====
/-
  What the kernel's body leaves in the output block, entry by entry. The body writes each head's output into its own
  32-column slab of a [64, 49, 128] buffer, reads the whole buffer back, multiplies it by the output projection and adds
  the shift. Read back at (b, n, 32·h + d) the buffer holds head `h`'s output for window `b`, token `n`, channel `d`
  (the four slabs tile the buffer, and each slab's contents are that head's outputs), so the block's entry (b, n, o)
  is the window attention of window `b` of the block.
-/
import proofs.«155753_j884763263594_1_alg».proof.Proof.Gen.KernelIdeal.Frame
import proofs.«155753_j884763263594_1_alg».proof.Proof.KernelHeads
import proofs.«155753_j884763263594_1_alg».proof.Proof.Spec
import Idealize.ShloMosaic.Lib.Pipeline.Value
import Idealize.ShloMosaic.Lib.ValueIdx
import Idealize.ShloMosaic.Lib.Tactic

set_option maxRecDepth 16384

noncomputable section

namespace Cert.KernelValue

open Cert.KernelIdeal Cert.KernelIdeal.Gen Idealize.ShloMosaic Idealize.ShloMosaic.TcCoe Idealize.SL.Sem
open Idealize.ShloMosaic.Tactic Idealize.ShloMosaic.ValueIdx

theorem zero3 : (![0, 0, 0] : Fin 3 → Nat) = fun _ => 0 := funext fun a => by fin_cases a <;> rfl
theorem zero2 : (![0, 0] : Fin 2 → Nat) = fun _ => 0 := funext fun a => by fin_cases a <;> rfl
theorem zero1 : (![0] : Fin 1 → Nat) = fun _ => 0 := funext fun a => by fin_cases a <;> rfl

/-- The four heads' outputs side by side: entry (b, n, 32·h + d) of the block is head `h`'s output for window
    `b`, token `n`, channel `d`. -/
def sideBySide (x0 : Vec Ideal S64x49x128 .f32) (x1 : Vec Ideal S384x128 .f32) (x4 : Vec Ideal S4x49x49 .f32)
    (x5 : Vec Ideal S64x49x49 .f32) : S64x49x128.Idx → EReal := fun j =>
  Cert.WinAttn.headOut (fun n c => x0 (ix3 (⟨(j 0).val, (j 0).isLt⟩ : Fin 64) n c)) (fun r c => x1 (ix2 r c))
    (fun h n m => x4 (ix3 h n m)) (fun n m => x5 (ix3 (⟨(j 0).val, (j 0).isLt⟩ : Fin 64) n m))
    (Cert.WinAttn.headOf (⟨(j 2).val, (j 2).isLt⟩ : Fin 128)) (⟨(j 1).val, (j 1).isLt⟩ : Fin 49)
    (Cert.WinAttn.chanOf (⟨(j 2).val, (j 2).isLt⟩ : Fin 128))

/-- `sideBySide` at an index whose coordinates are (b, n, 32·h + d). -/
theorem sideBySide_of (x0 : Vec Ideal S64x49x128 .f32) (x1 : Vec Ideal S384x128 .f32) (x4 : Vec Ideal S4x49x49 .f32)
    (x5 : Vec Ideal S64x49x49 .f32) (j : S64x49x128.Idx) (b : Fin 64) (n : Fin 49) (h : Fin 4) (d : Fin 32)
    (h0 : (j 0).val = b.val) (h1 : (j 1).val = n.val) (h2 : (j 2).val = 32 * h.val + d.val) :
    sideBySide x0 x1 x4 x5 j
      = Cert.WinAttn.headOut (fun n c => x0 (ix3 b n c)) (fun r c => x1 (ix2 r c)) (fun h n m => x4 (ix3 h n m))
          (fun n m => x5 (ix3 b n m)) h n d := by
  have eb : (⟨(j 0).val, (j 0).isLt⟩ : Fin 64) = b := Fin.ext h0
  have en : (⟨(j 1).val, (j 1).isLt⟩ : Fin 49) = n := Fin.ext h1
  have eh : Cert.WinAttn.headOf (⟨(j 2).val, (j 2).isLt⟩ : Fin 128) = h :=
    Fin.ext (by have := d.isLt; show (j 2).val / 32 = h.val; omega)
  have ed : Cert.WinAttn.chanOf (⟨(j 2).val, (j 2).isLt⟩ : Fin 128) = d :=
    Fin.ext (by have := d.isLt; show (j 2).val % 32 = d.val; omega)
  unfold sideBySide
  rw [eb, en, eh, ed]

/-- The four column slabs [·, ·, 32·h … 32·h + 31] of a [64, 49, 128] buffer, each with its own contents, the last
    written first in the list. -/
def slabs (w0 w1 w2 w3 : S64x49x32.Idx → EReal) : List (View.Piece (Elt Ideal) S64x49x128 .f32) :=
  [⟨Rect.unit (s := S64x49x128) ![0, 0, 96] S64x49x32.size inb_S64x49x128_S64x49x32_0_0_96, w3⟩,
   ⟨Rect.unit (s := S64x49x128) ![0, 0, 64] S64x49x32.size inb_S64x49x128_S64x49x32_0_0_64, w2⟩,
   ⟨Rect.unit (s := S64x49x128) ![0, 0, 32] S64x49x32.size inb_S64x49x128_S64x49x32_0_0_32, w1⟩,
   ⟨Rect.unit (s := S64x49x128) ![0, 0, 0] S64x49x32.size inb_S64x49x128_S64x49x32_0_0_0, w0⟩]

/-- The slabs tile the buffer. -/
theorem slabs_cover (w0 w1 w2 w3 : S64x49x32.Idx → EReal) (y : S64x49x128.Idx) :
    ∃ p ∈ slabs w0 w1 w2 w3, y ∈ p.1.set :=
  View.cover_of_tiledL (slabs w0 w1 w2 w3) S64x49x32.size (by sl_kernel_rfl) y

/-- A slab's contents read at any of its indices, from its contents at coordinates. -/
theorem slab_entry (w : S64x49x32.Idx → EReal) (f : Fin 64 → Fin 49 → Fin 32 → EReal)
    (e : ∀ b n d, w (ix3 b n d) = f b n d) (x : S64x49x32.Idx) :
    w x = f ⟨(x 0).val, (x 0).isLt⟩ ⟨(x 1).val, (x 1).isLt⟩ ⟨(x 2).val, (x 2).isLt⟩ := by
  have h := e ⟨(x 0).val, (x 0).isLt⟩ ⟨(x 1).val, (x 1).isLt⟩ ⟨(x 2).val, (x 2).isLt⟩
  rwa [show (ix3 (⟨(x 0).val, (x 0).isLt⟩ : Fin 64) (⟨(x 1).val, (x 1).isLt⟩ : Fin 49)
      (⟨(x 2).val, (x 2).isLt⟩ : Fin 32) : S64x49x32.Idx) = x from
    funext fun a => Fin.ext (by match a with | ⟨0, _⟩ => rfl | ⟨1, _⟩ => rfl | ⟨2, _⟩ => rfl)] at h

/-- When slab `h` holds head `h`'s outputs, the buffer read at any index is the heads' outputs side by side. -/
theorem slabs_canon (x0 : Vec Ideal S64x49x128 .f32) (x1 : Vec Ideal S384x128 .f32) (x4 : Vec Ideal S4x49x49 .f32)
    (x5 : Vec Ideal S64x49x49 .f32) (w0 w1 w2 w3 : S64x49x32.Idx → EReal)
    (e0 : ∀ b n d, w0 (ix3 b n d) = Cert.WinAttn.headOut (fun n c => x0 (ix3 b n c)) (fun r c => x1 (ix2 r c)) (fun h n m => x4 (ix3 h n m)) (fun n m => x5 (ix3 b n m)) 0 n d)
    (e1 : ∀ b n d, w1 (ix3 b n d) = Cert.WinAttn.headOut (fun n c => x0 (ix3 b n c)) (fun r c => x1 (ix2 r c)) (fun h n m => x4 (ix3 h n m)) (fun n m => x5 (ix3 b n m)) 1 n d)
    (e2 : ∀ b n d, w2 (ix3 b n d) = Cert.WinAttn.headOut (fun n c => x0 (ix3 b n c)) (fun r c => x1 (ix2 r c)) (fun h n m => x4 (ix3 h n m)) (fun n m => x5 (ix3 b n m)) 2 n d)
    (e3 : ∀ b n d, w3 (ix3 b n d) = Cert.WinAttn.headOut (fun n c => x0 (ix3 b n c)) (fun r c => x1 (ix2 r c)) (fun h n m => x4 (ix3 h n m)) (fun n m => x5 (ix3 b n m)) 3 n d)
    (y : S64x49x128.Idx) :
    View.canon (slabs w0 w1 w2 w3) y = sideBySide x0 x1 x4 x5 y := by
  refine View.canon_apply_of_pieces (sideBySide x0 x1 x4 x5) (slabs w0 w1 w2 w3) ?_ y (slabs_cover w0 w1 w2 w3 y)
  intro p hp
  simp only [slabs, List.mem_cons, List.not_mem_nil, or_false] at hp
  rcases hp with rfl | rfl | rfl | rfl <;> intro x
  · refine (slab_entry w3 _ e3 x).trans (sideBySide_of x0 x1 x4 x5 _ _ _ 3 _ ?_ ?_ ?_).symm
    · show 0 + 1 * (x 0).val = (x 0).val; omega
    · show 0 + 1 * (x 1).val = (x 1).val; omega
    · show 96 + 1 * (x 2).val = 32 * 3 + (x 2).val; omega
  · refine (slab_entry w2 _ e2 x).trans (sideBySide_of x0 x1 x4 x5 _ _ _ 2 _ ?_ ?_ ?_).symm
    · show 0 + 1 * (x 0).val = (x 0).val; omega
    · show 0 + 1 * (x 1).val = (x 1).val; omega
    · show 64 + 1 * (x 2).val = 32 * 2 + (x 2).val; omega
  · refine (slab_entry w1 _ e1 x).trans (sideBySide_of x0 x1 x4 x5 _ _ _ 1 _ ?_ ?_ ?_).symm
    · show 0 + 1 * (x 0).val = (x 0).val; omega
    · show 0 + 1 * (x 1).val = (x 1).val; omega
    · show 32 + 1 * (x 2).val = 32 * 1 + (x 2).val; omega
  · refine (slab_entry w0 _ e0 x).trans (sideBySide_of x0 x1 x4 x5 _ _ _ 0 _ ?_ ?_ ?_).symm
    · show 0 + 1 * (x 0).val = (x 0).val; omega
    · show 0 + 1 * (x 1).val = (x 1).val; omega
    · show 0 + 1 * (x 2).val = 32 * 0 + (x 2).val; omega

/-- THE BODY'S OUTPUT BLOCK: what the body leaves in the output's staging buffer, at window `b` of the block, token
    `n`, channel `o`, is the window attention of that window's tokens, with the block's mask rows. -/
theorem out_block_at (c : Dev nD) (i : grid0.Coords) (arg1 : Memref sig .tc .vmem S64x49x128 .f32) (harg1 : arg1.IsWhole) (arg2 : Memref sig .tc .vmem S384x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S4x49x49 .f32) (harg5 : arg5.IsWhole) (arg6 : Memref sig .tc .vmem S64x49x49 .f32) (harg6 : arg6.IsWhole) (arg7 : Memref sig .tc .vmem S64x49x128 .f32) (harg7 : arg7.IsWhole) (arg8 : Memref sig .tc .vmem S64x49x128 .f32) (harg8 : arg8.IsWhole)
    (x0 : Vec Ideal S64x49x128 .f32) (x1 : Vec Ideal S384x128 .f32) (x2 : Vec Ideal S128x128 .f32) (x3 : Vec Ideal S128 .f32) (x4 : Vec Ideal S4x49x49 .f32) (x5 : Vec Ideal S64x49x49 .f32)
    (b : Fin 64) (n : Fin 49) (o : Fin 128) :
    out0_A_6 (F := Ideal) c i arg1 harg1 arg2 harg2 arg3 harg3 arg4 harg4 arg5 harg5 arg6 harg6 arg7 harg7 arg8 harg8 x0 x1 x2 x3 x4 x5 (ix3 b n o)
      = Cert.WinAttn.out (fun n c => x0 (ix3 b n c)) (fun r c => x1 (ix2 r c)) (fun o c => x2 (ix2 o c))
          (fun o => x3 (ix1 o)) (fun h n m => x4 (ix3 h n m)) (fun n m => x5 (ix3 b n m)) n o := by
  unfold out0_A_6
  rw [View.read_writes_eq_canon _ _ _ (cover0_A_6 c i arg1 harg1 arg2 harg2 arg3 harg3 arg4 harg4 arg5 harg5 arg6 harg6 arg7 harg7 arg8 harg8 x0 x1 x2 x3 x4 x5)]
  unfold kernelRun0_A
  dsimp only
  sl_unfold_run_names
  rw [View.canon_unit_zero zero3]
  simp only [View.readAt_eq_ld, harg1.read_unread, harg2.read_unread, harg3.read_unread, harg4.read_unread,
    harg5.read_unread, harg6.read_unread, View.ld_unit_zero (S := S64x49x128) zero3,
    View.ld_unit_zero (S := S384x128) zero2, View.ld_unit_zero (S := S128x128) zero2,
    View.ld_unit_zero (S := S128) zero1, View.ld_unit_zero (S := S4x49x49) zero3,
    View.ld_unit_zero (S := S64x49x49) zero3]
  refine (final_at _ x2 x3 b n o).trans ?_
  unfold Cert.WinAttn.out
  refine congrArg (· + x3 (ix1 o)) (Finset.sum_congr rfl fun c _ => ?_)
  refine congrArg (· * x2 (ix2 o c)) ?_
  refine (congrFun (View.readCov_eq_canon' arg8.view _ (Rect.unit (s := S64x49x128) ![0, 0, 0] S64x49x128.size inb_S64x49x128_S64x49x128_0_0_0).toLoadRect) (ix3 b n c)).trans ?_
  refine (slabs_canon x0 x1 x4 x5
    (k0_pay11 (k0_pay8 x0 x1) (k0_pay9 x0 x1 x5 x4) (k0_pay10 x0 x1 x5 x4))
    (k0_pay12 (k0_pay4 x0 x1) (k0_pay5 x0 x1) (k0_pay6 x0 x1) x5 (k0_pay7 x4))
    (k0_pay15 (k0_pay13 (k0_pay6 x0 x1)) (k0_pay14 (k0_pay4 x0 x1) (k0_pay5 x0 x1) x5 (k0_pay7 x4)))
    (k0_pay16 (k0_pay4 x0 x1) (k0_pay5 x0 x1) (k0_pay6 x0 x1) x5 (k0_pay7 x4))
    (fun b n d => head0_at x0 x1 x5 x4 b n d) (fun b n d => head1_at x0 x1 x5 x4 b n d)
    (fun b n d => head2_at x0 x1 x5 x4 b n d) (fun b n d => head3_at x0 x1 x5 x4 b n d) _).trans ?_
  refine sideBySide_of x0 x1 x4 x5 _ b n (Cert.WinAttn.headOf c) (Cert.WinAttn.chanOf c) ?_ ?_ ?_
  · show 0 + 1 * b.val = b.val; omega
  · show 0 + 1 * n.val = n.val; omega
  · show 0 + 1 * c.val = 32 * (c.val / 32) + c.val % 32; omega

end Cert.KernelValue

end
-- ==== Proof.KernelArray.lean ====
/-
  From the body's output block to the whole result array. The grid has 128 points; point `t` is handed windows
  64·t … 64·t + 63 of the tokens, rows 64·(t mod 16) … of the mask, and the weights, the shift and the bias whole, and
  writes back block `t` of the result. Window B = 64·t + b gets the mask's rows (64·t + b) mod 1024 = 64·(t mod 16) + b,
  so every block written back is the block of ONE whole-array function (`result`), and the blocks tile the array.
-/
import proofs.«155753_j884763263594_1_alg».proof.Proof.Gen.KernelIdeal.Value
import proofs.«155753_j884763263594_1_alg».proof.Proof.KernelBlock
import proofs.«155753_j884763263594_1_alg».proof.Proof.Spec
import Idealize.ShloMosaic.Lib.Pipeline.Value
import Idealize.ShloMosaic.Lib.ValueIdx

set_option maxRecDepth 16384

noncomputable section

namespace Cert.KernelValue

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The window attention of two equal sets of arguments. -/
theorem out_congr {xb xb' : Fin 49 → Fin 128 → EReal} {W W' : Fin 384 → Fin 128 → EReal}
    {Pw Pw' : Fin 128 → Fin 128 → EReal} {pb pb' : Fin 128 → EReal} {bias bias' : Fin 4 → Fin 49 → Fin 49 → EReal}
    {mk mk' : Fin 49 → Fin 49 → EReal} {n n' : Fin 49} {o o' : Fin 128}
    (h1 : xb = xb') (h2 : W = W') (h3 : Pw = Pw') (h4 : pb = pb') (h5 : bias = bias') (h6 : mk = mk')
    (hn : n = n') (ho : o = o') :
    Cert.WinAttn.out xb W Pw pb bias mk n o = Cert.WinAttn.out xb' W' Pw' pb' bias' mk' n' o' := by
  subst h1 h2 h3 h4 h5 h6 hn ho; rfl

/-- The body's output block at any index of the block. -/
theorem out_block_idx (c : Dev nD) (i : grid0.Coords) (arg1 : Memref sig .tc .vmem S64x49x128 .f32) (harg1 : arg1.IsWhole) (arg2 : Memref sig .tc .vmem S384x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S4x49x49 .f32) (harg5 : arg5.IsWhole) (arg6 : Memref sig .tc .vmem S64x49x49 .f32) (harg6 : arg6.IsWhole) (arg7 : Memref sig .tc .vmem S64x49x128 .f32) (harg7 : arg7.IsWhole) (arg8 : Memref sig .tc .vmem S64x49x128 .f32) (harg8 : arg8.IsWhole)
    (x0 : Vec Ideal S64x49x128 .f32) (x1 : Vec Ideal S384x128 .f32) (x2 : Vec Ideal S128x128 .f32) (x3 : Vec Ideal S128 .f32) (x4 : Vec Ideal S4x49x49 .f32) (x5 : Vec Ideal S64x49x49 .f32)
    (y : S64x49x128.Idx) :
    out0_A_6 (F := Ideal) c i arg1 harg1 arg2 harg2 arg3 harg3 arg4 harg4 arg5 harg5 arg6 harg6 arg7 harg7 arg8 harg8 x0 x1 x2 x3 x4 x5 y
      = Cert.WinAttn.out (fun n c => x0 (ix3 (⟨(y 0).val, (y 0).isLt⟩ : Fin 64) n c)) (fun r c => x1 (ix2 r c))
          (fun o c => x2 (ix2 o c)) (fun o => x3 (ix1 o)) (fun h n m => x4 (ix3 h n m))
          (fun n m => x5 (ix3 (⟨(y 0).val, (y 0).isLt⟩ : Fin 64) n m))
          (⟨(y 1).val, (y 1).isLt⟩ : Fin 49) (⟨(y 2).val, (y 2).isLt⟩ : Fin 128) := by
  obtain ⟨b, n, o, rfl⟩ : ∃ (b : Fin 64) (n : Fin 49) (o : Fin 128), y = ix3 b n o :=
    ⟨⟨(y 0).val, (y 0).isLt⟩, ⟨(y 1).val, (y 1).isLt⟩, ⟨(y 2).val, (y 2).isLt⟩,
      funext fun a => Fin.ext (by match a with | ⟨0, _⟩ => rfl | ⟨1, _⟩ => rfl | ⟨2, _⟩ => rfl)⟩
  exact out_block_at c i arg1 harg1 arg2 harg2 arg3 harg3 arg4 harg4 arg5 harg5 arg6 harg6 arg7 harg7 arg8 harg8 x0 x1 x2 x3 x4 x5 b n o

/-- The printed index maps over the grid: the token and output blocks move with the point, the mask's block with
    the point modulo 16, every other window stays at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 3) = 0 ∧ win0_4.index t (1 : Fin 3) = 0 ∧ win0_4.index t (2 : Fin 3) = 0
    ∧ win0_5.index t (0 : Fin 3) = t.val % 16 ∧ win0_5.index t (1 : Fin 3) = 0 ∧ win0_5.index t (2 : Fin 3) = 0
    ∧ win0_6.index t (0 : Fin 3) = t.val ∧ win0_6.index t (1 : Fin 3) = 0 ∧ win0_6.index t (2 : Fin 3) = 0 :=
  (by decide +kernel : ∀ t : Fin grid0.N, _)

theorem t_lt (t : Fin cfg0.N) : t.val < 128 := Nat.lt_of_lt_of_eq t.isLt (show cfg0.N = 128 from N_0)

/-- The token block at point `t`: windows 64·t … 64·t + 63 of the token array. -/
theorem iblk0_at (c : Dev nD) (t : Fin cfg0.N) (b : Fin 64) (n : Fin 49) (k : Fin 128) (B : Fin 8192)
    (hB : B.val = 64 * t.val + b.val) :
    (iblk m c 0 t : Vec Ideal S64x49x128 .f32) (ix3 b n k)
      = ((m ((c : Thread nD τ).loc main_arg0)) : S8192x49x128.Idx → EReal) (ix3 B n k) := by
  obtain ⟨e0, e1, e2, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 3) * 64 + 1 * b.val = B.val; rw [e0, hB]; omega
  | ⟨1, _⟩ => show win0_0.index t (1 : Fin 3) * 49 + 1 * n.val = n.val; rw [e1]; omega
  | ⟨2, _⟩ => show win0_0.index t (2 : Fin 3) * 128 + 1 * k.val = k.val; rw [e2]; omega

/-- The stacked projection weights are staged whole. -/
theorem iblk1_at (c : Dev nD) (t : Fin cfg0.N) (r : Fin 384) (k : Fin 128) :
    (iblk m c 1 t : Vec Ideal S384x128 .f32) (ix2 r k) = ((m ((c : Thread nD τ).loc main_arg1)) : S384x128.Idx → EReal) (ix2 r k) := by
  obtain ⟨-, -, -, e0, e1, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 2) * 384 + 1 * r.val = r.val; rw [e0]; omega
  | ⟨1, _⟩ => show win0_1.index t (1 : Fin 2) * 128 + 1 * k.val = k.val; rw [e1]; omega

/-- The output projection weights are staged whole. -/
theorem iblk2_at (c : Dev nD) (t : Fin cfg0.N) (r : Fin 128) (k : Fin 128) :
    (iblk m c 2 t : Vec Ideal S128x128 .f32) (ix2 r k) = ((m ((c : Thread nD τ).loc main_arg2)) : S128x128.Idx → EReal) (ix2 r k) := by
  obtain ⟨-, -, -, -, -, e0, e1, -⟩ := idx_facts t
  unfold iblk
  rw [View.read_apply]
  show V m c main_arg2 _ = _
  rw [V_main_arg2]
  refine congrArg _ (funext fun a => Fin.ext ?_)
  match a with
  | ⟨0, _⟩ => show win0_2.index t (0 : Fin 2) * 128 + 1 * r.val = r.val; rw [e0]; omega
  | ⟨1, _⟩ => show win0_2.index t (1 : Fin 2) * 128 + 1 * k.val = k.val; rw [e1]; omega

/-- The output projection's shift is staged whole. -/
theorem iblk3_at (c : Dev nD) (t : Fin cfg0.N) (r : Fin 128) :
    (iblk m c 3 t : Vec Ideal S128 .f32) (ix1 r) = ((m ((c : Thread nD τ).loc main_arg3)) : S128.Idx → EReal) (ix1 r) := by
  obtain ⟨-, -, -, -, -, -, -, e0, -⟩ := idx_facts t
  unfold iblk
  rw [View.read_apply]
  show V m c main_arg3 _ = _
  rw [V_main_arg3]
  refine congrArg _ (funext fun a => Fin.ext ?_)
  match a with
  | ⟨0, _⟩ => show win0_3.index t (0 : Fin 1) * 128 + 1 * r.val = r.val; rw [e0]; omega

/-- The relative-position bias (the array the host operations before the call leave) is staged whole. -/
theorem iblk4_at (c : Dev nD) (t : Fin cfg0.N) (h : Fin 4) (n k : Fin 49) :
    (iblk m c 4 t : Vec Ideal S4x49x49 .f32) (ix3 h n k) = (V m c main_v7 : S4x49x49.Idx → EReal) (ix3 h n k) := by
  obtain ⟨-, -, -, -, -, -, -, -, e0, e1, e2, -⟩ := idx_facts t
  unfold iblk
  rw [View.read_apply]
  show V m c main_v7 _ = _
  refine congrArg _ (funext fun a => Fin.ext ?_)
  match a with
  | ⟨0, _⟩ => show win0_4.index t (0 : Fin 3) * 4 + 1 * h.val = h.val; rw [e0]; omega
  | ⟨1, _⟩ => show win0_4.index t (1 : Fin 3) * 49 + 1 * n.val = n.val; rw [e1]; omega
  | ⟨2, _⟩ => show win0_4.index t (2 : Fin 3) * 49 + 1 * k.val = k.val; rw [e2]; omega

/-- The mask block at point `t`: rows 64·(t mod 16) … of the mask array. -/
theorem iblk5_at (c : Dev nD) (t : Fin cfg0.N) (b : Fin 64) (n k : Fin 49) (M : Fin 1024)
    (hM : M.val = 64 * (t.val % 16) + b.val) :
    (iblk m c 5 t : Vec Ideal S64x49x49 .f32) (ix3 b n k)
      = ((m ((c : Thread nD τ).loc main_arg5)) : S1024x49x49.Idx → EReal) (ix3 M n k) := by
  obtain ⟨-, -, -, -, -, -, -, -, -, -, -, e0, e1, e2, -⟩ := idx_facts t
  unfold iblk
  rw [View.read_apply]
  show V m c main_arg5 _ = _
  rw [V_main_arg5]
  refine congrArg _ (funext fun a => Fin.ext ?_)
  match a with
  | ⟨0, _⟩ => show win0_5.index t (0 : Fin 3) * 64 + 1 * b.val = M.val; rw [e0, hM]; omega
  | ⟨1, _⟩ => show win0_5.index t (1 : Fin 3) * 49 + 1 * n.val = n.val; rw [e1]; omega
  | ⟨2, _⟩ => show win0_5.index t (2 : Fin 3) * 49 + 1 * k.val = k.val; rw [e2]; omega

/-- THE RESULT ARRAY: entry (B, n, o) is the window attention of window `B`'s tokens with the mask's rows
    `B mod 1024`, the bias the array the host operations before the call leave. -/
def result (c : Dev nD) : Buf (Elt Ideal) ((c : Thread nD τ).loc main_v8) := fun (i : S8192x49x128.Idx) =>
  Cert.WinAttn.out
    (fun n k => ((m ((c : Thread nD τ).loc main_arg0)) : S8192x49x128.Idx → EReal) (ix3 (⟨(i 0).val, (i 0).isLt⟩ : Fin 8192) n k))
    (fun r k => ((m ((c : Thread nD τ).loc main_arg1)) : S384x128.Idx → EReal) (ix2 r k))
    (fun r k => ((m ((c : Thread nD τ).loc main_arg2)) : S128x128.Idx → EReal) (ix2 r k))
    (fun r => ((m ((c : Thread nD τ).loc main_arg3)) : S128.Idx → EReal) (ix1 r))
    (fun h n k => (V m c main_v7 : S4x49x49.Idx → EReal) (ix3 h n k))
    (fun n k => ((m ((c : Thread nD τ).loc main_arg5)) : S1024x49x49.Idx → EReal)
      (ix3 (⟨(i 0).val % 1024, Nat.mod_lt _ (by decide)⟩ : Fin 1024) n k))
    (⟨(i 1).val, (i 1).isLt⟩ : Fin 49) (⟨(i 2).val, (i 2).isLt⟩ : Fin 128)

/-- Point `t`'s output block at `y` is the result array at the index `y` is written back to. -/
theorem block_is_result (c : Dev nD) (t : Fin cfg0.N) (y : S64x49x128.Idx) (i : S8192x49x128.Idx)
    (h0 : (i 0).val = win0_6.index t (0 : Fin 3) * 64 + 1 * (y 0).val)
    (h1 : (i 1).val = win0_6.index t (1 : Fin 3) * 49 + 1 * (y 1).val)
    (h2 : (i 2).val = win0_6.index t (2 : Fin 3) * 128 + 1 * (y 2).val) :
    out0_A_6 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) scM0_0 (Memref.isWhole_whole _)
      (iblk m c 0 t) (iblk m c 1 t) (iblk m c 2 t) (iblk m c 3 t) (iblk m c 4 t) (iblk m c 5 t) y
      = result m c i := by
  refine (out_block_idx c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) scM0_0 (Memref.isWhole_whole _)
    (iblk m c 0 t) (iblk m c 1 t) (iblk m c 2 t) (iblk m c 3 t) (iblk m c 4 t) (iblk m c 5 t) y).trans ?_
  have hy : (y 0).val < 64 := (y 0).isLt
  have ht := t_lt t
  obtain ⟨-, -, -, -, -, -, -, -, -, -, -, -, -, -, e0, e1, e2⟩ := idx_facts t
  unfold result
  refine out_congr
    (funext fun n => funext fun k => iblk0_at m c t _ n k _ ?_)
    (funext fun r => funext fun k => iblk1_at m c t r k)
    (funext fun r => funext fun k => iblk2_at m c t r k)
    (funext fun r => iblk3_at m c t r)
    (funext fun h => funext fun n => funext fun k => iblk4_at m c t h n k)
    (funext fun n => funext fun k => iblk5_at m c t _ n k _ ?_)
    (Fin.ext ?_) (Fin.ext ?_)
  · show (i 0).val = 64 * t.val + (y 0).val; rw [h0, e0]; omega
  · show (i 0).val % 1024 = 64 * (t.val % 16) + (y 0).val; rw [h0, e0]; omega
  · show (y 1).val = (i 1).val; rw [h1, e1]; omega
  · show (y 2).val = (i 2).val; rw [h2, e2]; omega

/-- WHAT POINT `t` WRITES BACK is block `t` of the result array. -/
theorem flushed_eq (c : Dev nD) (t : Fin cfg0.N) (hf : (cfg0.win 6).flush t = true) :
    (dats m 0 c).flushed 6 t = ((cfg0.win 6).blk t).view.read (Elt Ideal) (result m c) := by
  rw [flushed6_A]
  funext y
  rw [View.read_apply]
  exact block_is_result m c t ((cfg0.win 6).xinj (grid0.coords t) y) (((cfg0.win 6).blk t).view.emb y) rfl rfl rfl

/-- An index of the result array is in point `t`'s block iff each coordinate is in the block's range. -/
theorem mem_blk (t : Fin cfg0.N) (i : S8192x49x128.Idx) :
    i ∈ ((cfg0.win 6).blk t).view.set ↔ ∀ a : Fin 3, win0_6.index t a * S64x49x128.size a ≤ (i a).val ∧ (i a).val < win0_6.index t a * S64x49x128.size a + S64x49x128.size a := by
  show i ∈ ((View.whole main_v8).slice (win0_6.rect t)).set ↔ _
  rw [View.set_slice_whole, Rect.mem_set_unit]
  exact Iff.rfl

/-- THE RESULT ARRAY after the run: the blocks tile it, window `B` lying in point `B / 64`'s. -/
theorem final (c : Dev nD) : (dats m 0 c).arrAt 6 cfg0.N = result m c :=
  (dats m 0 c).arrAt_eq_of_cover 6 (result m c) (flushed_eq m c) fun i => by
    have h0 : (i 0).val < 8192 := (i 0).isLt
    have h1 : (i 1).val < 49 := (i 1).isLt
    have h2 : (i 2).val < 128 := (i 2).isLt
    refine ⟨⟨(i 0).val / 64, by rw [show cfg0.N = 128 from N_0]; omega⟩, flush0_6 _, ?_⟩
    rw [mem_blk]
    obtain ⟨-, -, -, -, -, -, -, -, -, -, -, -, -, -, e0, e1, e2⟩ := idx_facts ⟨(i 0).val / 64, by rw [show cfg0.N = 128 from N_0]; omega⟩
    intro a
    match a with
    | ⟨0, _⟩ => show win0_6.index _ (0 : Fin 3) * 64 ≤ (i 0).val ∧ (i 0).val < win0_6.index _ (0 : Fin 3) * 64 + 64; rw [e0]; show (i 0).val / 64 * 64 ≤ (i 0).val ∧ (i 0).val < (i 0).val / 64 * 64 + 64; omega
    | ⟨1, _⟩ => show win0_6.index _ (1 : Fin 3) * 49 ≤ (i 1).val ∧ (i 1).val < win0_6.index _ (1 : Fin 3) * 49 + 49; rw [e1]; omega
    | ⟨2, _⟩ => show win0_6.index _ (2 : Fin 3) * 128 ≤ (i 2).val ∧ (i 2).val < win0_6.index _ (2 : Fin 3) * 128 + 128; rw [e2]; omega

/-- The kernel's run, read: the result array ends at `result`, the arguments unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final m c), (h c).2⟩) (run_blocks m ρ)

end Cert.KernelValue

end
-- ==== Proof.HostBias.lean ====
/-
  The relative-position bias is the same array on both sides: the kernel's program and the reference apply the same
  host operations to the bias table and the position indices (a negative index is shifted by 169, the table's rows are
  gathered at the indices, and the result [49, 49, 4] is transposed to [4, 49, 49]), so the array the kernel's call
  is handed is the reference's, operation for operation; the gather is never opened.
-/
import proofs.«155753_j884763263594_1_alg».proof.Proof.Gen.KernelIdeal.Frame.Runs
import proofs.«155753_j884763263594_1_alg».proof.Proof.Gen.ReferenceIdeal.Read
import Idealize.ShloMosaic.Lib.StableHlo.Run

noncomputable section

namespace Cert.KernelValue

open Idealize.ShloMosaic Idealize.ShloMosaic.TcCoe Idealize.SL.Sem Idealize.ShloMosaic.StableHlo
open Cert.KernelIdeal Cert.KernelIdeal.Gen

/-- The bias array the kernel's call is handed is the reference's gathered and transposed bias of the same table and
    indices. -/
theorem bias_eq (m : (ℓ : Loc nD τ sig) → Buf (Elt Ideal) ℓ) (c : Dev nD) :
    (V m c main_v7 : S4x49x49.Idx → EReal)
      = Cert.ReferenceIdeal.Read.val_main_v19 (F := Ideal) (m ((c : Thread nD τ).loc main_arg4))
          (m ((c : Thread nD τ).loc main_arg6)) := by
  dsimp only [V, hostOps0]
  after_results
  rfl

end Cert.KernelValue

end
-- ==== Proof.lean ====
/-
  The kernel computes Swin-style window attention one block of 64 windows per grid point; the reference computes it
  for all 8192 windows at once. At the ideal values both are ONE function of the argument arrays
  (`Cert.WinAttn.out`, Proof/Spec.lean), window by window: the reference by following its operations back from the
  result (Proof/RefIsSpec.lean), the kernel by reading its body's arithmetic at an index (Proof/KernelHeads.lean), the
  four heads' slabs of its buffer side by side (Proof/KernelBlock.lean) and its blocks as one whole array — window
  64·t + b of point `t` meets the mask rows (64·t + b) mod 1024, which is what the mask's block 64·(t mod 16) + b
  supplies (Proof/KernelArray.lean). The relative-position bias is on both sides the same host operations of the
  same table and indices (Proof/HostBias.lean). No law beyond the reordering of finite sums is used, so the
  precondition is never opened. The frames are the generated ones (the reference's is its run with the result
  dropped); the ideal pass rewrote nothing, so `preserves` is `True`.
-/
import proofs.«155753_j884763263594_1_alg».proof.Defs
import proofs.«155753_j884763263594_1_alg».proof.Proof.Gen.Kernel
import proofs.«155753_j884763263594_1_alg».proof.Proof.Gen.Kernel.Skeleton
import proofs.«155753_j884763263594_1_alg».proof.Proof.Gen.Kernel.Launch
import proofs.«155753_j884763263594_1_alg».proof.Proof.Gen.Kernel.Points
import proofs.«155753_j884763263594_1_alg».proof.Proof.Gen.Kernel.Frame
import proofs.«155753_j884763263594_1_alg».proof.Proof.Gen.KernelIdeal
import proofs.«155753_j884763263594_1_alg».proof.Proof.Gen.KernelIdeal.Skeleton
import proofs.«155753_j884763263594_1_alg».proof.Proof.Gen.KernelIdeal.Launch
import proofs.«155753_j884763263594_1_alg».proof.Proof.Gen.KernelIdeal.Points
import proofs.«155753_j884763263594_1_alg».proof.Proof.Gen.KernelIdeal.Frame
import proofs.«155753_j884763263594_1_alg».proof.Proof.Gen.ReferenceIdeal
import proofs.«155753_j884763263594_1_alg».proof.Proof.Gen.Pre_finite_inputs
import proofs.«155753_j884763263594_1_alg».proof.Proof.Gen.KernelIdeal.Value
import proofs.«155753_j884763263594_1_alg».proof.Proof.Gen.ReferenceIdeal.Run
import proofs.«155753_j884763263594_1_alg».proof.Proof.Gen.ReferenceIdeal.Read
import proofs.«155753_j884763263594_1_alg».proof.Proof.Spec
import proofs.«155753_j884763263594_1_alg».proof.Proof.RefIsSpec
import proofs.«155753_j884763263594_1_alg».proof.Proof.KernelHeads
import proofs.«155753_j884763263594_1_alg».proof.Proof.KernelBlock
import proofs.«155753_j884763263594_1_alg».proof.Proof.KernelArray
import proofs.«155753_j884763263594_1_alg».proof.Proof.HostBias
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the window attention of each window's tokens: the kernel's run ends at
    `Cert.KernelValue.result`, and the reference's result, read at (B, n, o), is the same function of arguments that
    agree, the two bias arrays being one. -/
theorem algebraic : Cert.algebraic_KernelIdeal_ReferenceIdeal := by
  intro m ρ m' ρ' _ hagree
  refine ⟨fun c => Cert.KernelValue.result m c, Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v45_eq]
  obtain ⟨a0, a1, a2, a3, a4, a5, a6⟩ := hagree c
  rw [a0, a1, a2, a3, a4, a5, a6]
  funext i
  obtain ⟨B, n, o, rfl⟩ : ∃ (B : Fin 8192) (n : Fin 49) (o : Fin 128), i = ix3 B n o :=
    ⟨⟨(i 0).val, (i 0).isLt⟩, ⟨(i 1).val, (i 1).isLt⟩, ⟨(i 2).val, (i 2).isLt⟩,
      funext fun a => Fin.ext (by match a with | ⟨0, _⟩ => rfl | ⟨1, _⟩ => rfl | ⟨2, _⟩ => rfl)⟩
  refine (Cert.RefValue.ref_out _ _ _ _ _ _ _ B n o).trans ?_
  unfold Cert.KernelValue.result
  refine Cert.KernelValue.out_congr rfl rfl rfl rfl ?_ rfl rfl rfl
  rw [Cert.KernelValue.bias_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
